-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S3200000 : Shape := ⟨1, ![3200000]⟩
abbrev S16x128 : Shape := ⟨2, ![16, 128]⟩
abbrev S16 : Shape := ⟨1, ![16]⟩
abbrev S16x16 : Shape := ⟨2, ![16, 16]⟩
abbrev S8x16 : Shape := ⟨2, ![8, 16]⟩
abbrev S8 : Shape := ⟨1, ![8]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S16x128 : S_.BroadcastsInDim S16x128 (![] : Fin 0 → Fin S16x128.rank)
  reducesTo_S16x128_S_d0_1 : S16x128.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S8x16 : S_.BroadcastsInDim S8x16 (![] : Fin 0 → Fin S8x16.rank)
  reducesTo_S8x16_S_d0_1 : S8x16.ReducesTo [0, 1] S_
  bcast_S_S8 : S_.BroadcastsInDim S8 (![] : Fin 0 → Fin S8.rank)
  reducesTo_S8_S_d0 : S8.ReducesTo [0] S_

variable [Facts]

def fn_part2 {F : FTy → Type} [FloatOps F] (main_arg8 : FVec F S8 .f32) (main_v33 : IVec S_ 1) : IVec S_ 1 :=
  let main_v34 : FVec F S8 .f32 := Host.absf main_arg8
  let main_cst_12 : FVec F S_ .f32 := constant S_ .f32 0x7F800000#32
  let main_v35 : FVec F S8 .f32 := broadcastInDim S8 ![] bcast_S_S8 main_cst_12
  let main_v36 : IVec S8 1 := cmpf .olt main_v34 main_v35
  let main_c_13 : IVec S_ 1 := constantI S_ 1 1#1
  let main_v37 : IVec S_ 1 := (fun x v => Host.reduce IntOp.andi x v reducesTo_S8_S_d0 h_S_) main_v36 main_c_13
  let main_v38 : IVec S_ 1 := andi main_v33 main_v37
  main_v38

def fn_part1 {F : FTy → Type} [FloatOps F] (main_arg5 : FVec F S16x16 .f32) (main_arg6 : FVec F S16 .f32) (main_arg7 : FVec F S8x16 .f32) (main_arg8 : FVec F S8 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x16 .f32 := Host.absf main_arg5
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S8x16 .f32 := Host.absf main_arg7
  let main_cst_10 : FVec F S_ .f32 := constant S_ .f32 0x7F800000#32
  let main_v30 : FVec F S8x16 .f32 := broadcastInDim S8x16 ![] bcast_S_S8x16 main_cst_10
  let main_v31 : IVec S8x16 1 := cmpf .olt main_v29 main_v30
  let main_c_11 : IVec S_ 1 := constantI S_ 1 1#1
  let main_v32 : IVec S_ 1 := (fun x v => Host.reduce IntOp.andi x v reducesTo_S8x16_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x3200000 32) (main_arg2 : FVec F S3200000 .f32) (main_arg3 : FVec F S16x128 .f32) (main_arg4 : FVec F S16 .f32) (main_arg5 : FVec F S16x16 .f32) (main_arg6 : FVec F S16 .f32) (main_arg7 : FVec F S8x16 .f32) (main_arg8 : FVec F S8 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S16x128 .f32 := Host.absf main_arg3
  let main_cst_2 : FVec F S_ .f32 := constant S_ .f32 0x7F800000#32
  let main_v10 : FVec F S16x128 .f32 := broadcastInDim S16x128 ![] bcast_S_S16x128 main_cst_2
  let main_v11 : IVec S16x128 1 := cmpf .olt main_v9 main_v10
  let main_c_3 : IVec S_ 1 := constantI S_ 1 1#1
  let main_v12 : IVec S_ 1 := (fun x v => Host.reduce IntOp.andi x v reducesTo_S16x128_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_arg7 main_arg8 main_v13 main_v16
-- ==== Kernel.lean ====
abbrev S100000x128 : Shape := ⟨2, ![100000, 128]⟩
abbrev S2x3200000 : Shape := ⟨2, ![2, 3200000]⟩
abbrev S3200000 : Shape := ⟨1, ![3200000]⟩
abbrev S16x128 : Shape := ⟨2, ![16, 128]⟩
abbrev S16 : Shape := ⟨1, ![16]⟩
abbrev S16x16 : Shape := ⟨2, ![16, 16]⟩
abbrev S8x16 : Shape := ⟨2, ![8, 16]⟩
abbrev S8 : Shape := ⟨1, ![8]⟩
abbrev S1x3200000 : Shape := ⟨2, ![1, 3200000]⟩
abbrev S100000x16 : Shape := ⟨2, ![100000, 16]⟩
abbrev S10000x128 : Shape := ⟨2, ![10000, 128]⟩
abbrev S10000x16 : Shape := ⟨2, ![10000, 16]⟩
abbrev S128x16 : Shape := ⟨2, ![128, 16]⟩
abbrev S3200000x1 : Shape := ⟨2, ![3200000, 1]⟩
abbrev S_ : Shape := ⟨0, ![]⟩
abbrev S3200000x16 : Shape := ⟨2, ![3200000, 16]⟩
abbrev S1x16 : Shape := ⟨2, ![1, 16]⟩
abbrev S1x8 : Shape := ⟨2, ![1, 8]⟩
abbrev S100000x8 : Shape := ⟨2, ![100000, 8]⟩
abbrev S10000x8 : Shape := ⟨2, ![10000, 8]⟩
abbrev S16x8 : Shape := ⟨2, ![16, 8]⟩
abbrev S10000 : Shape := ⟨1, ![10000]⟩
abbrev S10000x1 : Shape := ⟨2, ![10000, 1]⟩

abbrev nBuf : Space → Nat
  | .hbm => 51
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S3200000, .f32⟩
  | .hbm, ⟨3, _⟩ => ⟨S16x128, .f32⟩
  | .hbm, ⟨4, _⟩ => ⟨S16, .f32⟩
  | .hbm, ⟨5, _⟩ => ⟨S16x16, .f32⟩
  | .hbm, ⟨6, _⟩ => ⟨S16, .f32⟩
  | .hbm, ⟨7, _⟩ => ⟨S8x16, .f32⟩
  | .hbm, ⟨8, _⟩ => ⟨S8, .f32⟩
  | .hbm, ⟨9, _⟩ => ⟨S1x3200000, .i32⟩
  | .hbm, ⟨10, _⟩ => ⟨S3200000, .i32⟩
  | .hbm, ⟨11, _⟩ => ⟨S1x3200000, .i32⟩
  | .hbm, ⟨12, _⟩ => ⟨S3200000, .i32⟩
  | .hbm, ⟨13, _⟩ => ⟨S100000x16, .f32⟩
  | .hbm, ⟨14, _⟩ => ⟨S3200000x1, .f32⟩
  | .hbm, ⟨15, _⟩ => ⟨S_, .i32⟩
  | .hbm, ⟨16, _⟩ => ⟨S3200000, .i32⟩
  | .hbm, ⟨17, _⟩ => ⟨S3200000, .i1⟩
  | .hbm, ⟨18, _⟩ => ⟨S_, .i32⟩
  | .hbm, ⟨19, _⟩ => ⟨S3200000, .i32⟩
  | .hbm, ⟨20, _⟩ => ⟨S3200000, .i32⟩
  | .hbm, ⟨21, _⟩ => ⟨S3200000, .i32⟩
  | .hbm, ⟨22, _⟩ => ⟨S3200000x1, .i32⟩
  | .hbm, ⟨23, _⟩ => ⟨S3200000x16, .f32⟩
  | .hbm, ⟨24, _⟩ => ⟨S3200000x16, .f32⟩
  | .hbm, ⟨25, _⟩ => ⟨S3200000x16, .f32⟩
  | .hbm, ⟨26, _⟩ => ⟨S_, .f32⟩
  | .hbm, ⟨27, _⟩ => ⟨S100000x16, .f32⟩
  | .hbm, ⟨28, _⟩ => ⟨S3200000x1, .i32⟩
  | .hbm, ⟨29, _⟩ => ⟨S100000x16, .f32⟩
  | .hbm, ⟨30, _⟩ => ⟨S1x16, .f32⟩
  | .hbm, ⟨31, _⟩ => ⟨S100000x16, .f32⟩
  | .hbm, ⟨32, _⟩ => ⟨S3200000x1, .f32⟩
  | .hbm, ⟨33, _⟩ => ⟨S_, .i32⟩
  | .hbm, ⟨34, _⟩ => ⟨S3200000, .i32⟩
  | .hbm, ⟨35, _⟩ => ⟨S3200000, .i1⟩
  | .hbm, ⟨36, _⟩ => ⟨S_, .i32⟩
  | .hbm, ⟨37, _⟩ => ⟨S3200000, .i32⟩
  | .hbm, ⟨38, _⟩ => ⟨S3200000, .i32⟩
  | .hbm, ⟨39, _⟩ => ⟨S3200000, .i32⟩
  | .hbm, ⟨40, _⟩ => ⟨S3200000x1, .i32⟩
  | .hbm, ⟨41, _⟩ => ⟨S3200000x16, .f32⟩
  | .hbm, ⟨42, _⟩ => ⟨S3200000x16, .f32⟩
  | .hbm, ⟨43, _⟩ => ⟨S3200000x16, .f32⟩
  | .hbm, ⟨44, _⟩ => ⟨S_, .f32⟩
  | .hbm, ⟨45, _⟩ => ⟨S100000x16, .f32⟩
  | .hbm, ⟨46, _⟩ => ⟨S3200000x1, .i32⟩
  | .hbm, ⟨47, _⟩ => ⟨S100000x16, .f32⟩
  | .hbm, ⟨48, _⟩ => ⟨S1x16, .f32⟩
  | .hbm, ⟨49, _⟩ => ⟨S1x8, .f32⟩
  | .hbm, ⟨50, _⟩ => ⟨S100000x8, .f32⟩
  | .local _ .vmem, ⟨0, _⟩ => ⟨S10000x128, .f32⟩
  | .local _ .vmem, ⟨1, _⟩ => ⟨S10000x128, .f32⟩
  | .local _ .vmem, ⟨2, _⟩ => ⟨S16x128, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S1x16, .f32⟩
  | .local _ .vmem, ⟨8, _⟩ => ⟨S16x16, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S10000x16, .f32⟩
  | .local _ .vmem, ⟨13, _⟩ => ⟨S1x16, .f32⟩
  | .local _ .vmem, ⟨14, _⟩ => ⟨S8x16, .f32⟩
  | .local _ .vmem, ⟨15, _⟩ => ⟨S1x8, .f32⟩
  | .local _ .vmem, ⟨16, _⟩ => ⟨S10000x8, .f32⟩
  | .local _ .vmem, ⟨17, _⟩ => ⟨S10000x8, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_1 : Ref sig .tc := ⟨.hbm, 33, rfl⟩
abbrev main_v21 : Ref sig .tc := ⟨.hbm, 34, rfl⟩
abbrev main_v22 : Ref sig .tc := ⟨.hbm, 35, rfl⟩
abbrev main_c_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S8x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x8 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x8 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S16x128_S16x128_0_0 : ∀ a, (![0, 0] : Fin 2 → Nat) a + S16x128.size a ≤ S16x128.size a
  h_S16x128 : 0 < S16x128.numel
  transposes_S16x128_p1_0_S128x16 : S16x128.Transposes [1, 0] S128x16
  inb_S10000x16_S10000x16_0_0 : ∀ a, (![0, 0] : Fin 2 → Nat) a + S10000x16.size a ≤ S10000x16.size a
  h_S10000x16 : 0 < S10000x16.numel
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  shapeCasts_S16_S1x16 : S16.ShapeCasts S1x16
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x16_S16x16_0_0 : ∀ a, (![0, 0] : Fin 2 → Nat) a + S16x16.size a ≤ S16x16.size a
  h_S16x16 : 0 < S16x16.numel
  transposes_S16x16_p1_0_S16x16 : S16x16.Transposes [1, 0] S16x16
  shapeCasts_S8_S1x8 : S8.ShapeCasts S1x8
  inb_S8x16_S8x16_0_0 : ∀ a, (![0, 0] : Fin 2 → Nat) a + S8x16.size a ≤ S8x16.size a
  h_S8x16 : 0 < S8x16.numel
  transposes_S8x16_p1_0_S16x8 : S8x16.Transposes [1, 0] S16x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S10000x8 : S1x8.Broadcasts S10000x8
  reduces_S10000x8_S10000 : S10000x8.Reduces [1] S10000
  shapeCasts_S10000_S10000x1 : S10000.ShapeCasts S10000x1
  broadcasts_S10000x1_S10000x8 : S10000x1.Broadcasts S10000x8
  inb_S10000x8_S10000x8_0_0 : ∀ a, (![0, 0] : Fin 2 → Nat) a + S10000x8.size a ≤ S10000x8.size a
  h_S10000x8 : 0 < S10000x8.numel
  dot_S10000x128_S128x16_S10000x16_1_0_0_1_n_n_wf : DotDims.WF S10000x128 S128x16 S10000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S10000x16_S16x16_S10000x16_1_0_0_1_n_n_wf : DotDims.WF S10000x16 S16x16 S10000x16 [1] [0] [0] [1] [] []
  dot_S10000x16_S16x8_S10000x8_1_0_0_1_n_n_wf : DotDims.WF S10000x16 S16x8 S10000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x128.size a
  hwx0_1 : ∀ i : grid0.Coords, EltTy.bits .f32 = 32 ∨ (Rect.block (s := S16x128) S16x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x16.size a ≤ S16x16.size a
  hwx1_2 : ∀ i : grid1.Coords, EltTy.bits .f32 = 32 ∨ (Rect.block (s := S16x16) S16x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x16.size a ≤ S100000x16.size a
  hwx1_3 : ∀ i : grid1.Coords, EltTy.bits .f32 = 32 ∨ (Rect.block (s := S100000x16) S10000x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S8x16.size a ≤ S8x16.size a
  hwx2_2 : ∀ i : grid2.Coords, EltTy.bits .f32 = 32 ∨ (Rect.block (s := S8x16) S8x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x8.size a ≤ S1x8.size a
  hwx2_3 : ∀ i : grid2.Coords, EltTy.bits .f32 = 32 ∨ (Rect.block (s := S1x8) S1x8.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x8.size a ≤ S100000x8.size a
  hwx2_4 : ∀ i : grid2.Coords, EltTy.bits .f32 = 32 ∨ (Rect.block (s := S100000x8) S10000x8.size (cc2_transform_4 i) (hinb2_4 i)).WholeWords (EltTy.packing .f32)

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf
def dot_S10000x16_S16x8_S10000x8_1_0_0_1_n_n : DotDims S10000x16 S16x8 S10000x8 where
  lhsContracting := [1]
  rhsContracting := [0]
  lhsNonContracting := [0]
  rhsNonContracting := [1]
  lhsBatch := []
  rhsBatch := []
  wf := dot_S10000x16_S16x8_S10000x8_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S16x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S16x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S10000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v32) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S8x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v34) S1x8.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v35) S10000x8.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S3200000 : Shape := ⟨1, ![3200000]⟩
abbrev S16x128 : Shape := ⟨2, ![16, 128]⟩
abbrev S16 : Shape := ⟨1, ![16]⟩
abbrev S16x16 : Shape := ⟨2, ![16, 16]⟩
abbrev S8x16 : Shape := ⟨2, ![8, 16]⟩
abbrev S8 : Shape := ⟨1, ![8]⟩
abbrev S1x3200000 : Shape := ⟨2, ![1, 3200000]⟩
abbrev S128x16 : Shape := ⟨2, ![128, 16]⟩
abbrev S100000x16 : Shape := ⟨2, ![100000, 16]⟩
abbrev S3200000x1 : Shape := ⟨2, ![3200000, 1]⟩
abbrev S_ : Shape := ⟨0, ![]⟩
abbrev S3200000x16 : Shape := ⟨2, ![3200000, 16]⟩
abbrev S1x16 : Shape := ⟨2, ![1, 16]⟩
abbrev S16x8 : Shape := ⟨2, ![16, 8]⟩
abbrev S100000x8 : Shape := ⟨2, ![100000, 8]⟩
abbrev S1x8 : Shape := ⟨2, ![1, 8]⟩
abbrev S100000 : Shape := ⟨1, ![100000]⟩
abbrev S100000x1 : Shape := ⟨2, ![100000, 1]⟩

abbrev nBuf : Space → Nat
  | .hbm => 80
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S3200000, .f32⟩
  | .hbm, ⟨3, _⟩ => ⟨S16x128, .f32⟩
  | .hbm, ⟨4, _⟩ => ⟨S16, .f32⟩
  | .hbm, ⟨5, _⟩ => ⟨S16x16, .f32⟩
  | .hbm, ⟨6, _⟩ => ⟨S16, .f32⟩
  | .hbm, ⟨7, _⟩ => ⟨S8x16, .f32⟩
  | .hbm, ⟨8, _⟩ => ⟨S8, .f32⟩
  | .hbm, ⟨9, _⟩ => ⟨S1x3200000, .i32⟩
  | .hbm, ⟨10, _⟩ => ⟨S3200000, .i32⟩
  | .hbm, ⟨11, _⟩ => ⟨S1x3200000, .i32⟩
  | .hbm, ⟨12, _⟩ => ⟨S3200000, .i32⟩
  | .hbm, ⟨13, _⟩ => ⟨S128x16, .f32⟩
  | .hbm, ⟨14, _⟩ => ⟨S100000x16, .f32⟩
  | .hbm, ⟨15, _⟩ => ⟨S3200000x1, .f32⟩
  | .hbm, ⟨16, _⟩ => ⟨S_, .i32⟩
  | .hbm, ⟨17, _⟩ => ⟨S3200000, .i32⟩
  | .hbm, ⟨18, _⟩ => ⟨S3200000, .i1⟩
  | .hbm, ⟨19, _⟩ => ⟨S_, .i32⟩
  | .hbm, ⟨20, _⟩ => ⟨S3200000, .i32⟩
  | .hbm, ⟨21, _⟩ => ⟨S3200000, .i32⟩
  | .hbm, ⟨22, _⟩ => ⟨S3200000, .i32⟩
  | .hbm, ⟨23, _⟩ => ⟨S3200000x1, .i32⟩
  | .hbm, ⟨24, _⟩ => ⟨S3200000x16, .f32⟩
  | .hbm, ⟨25, _⟩ => ⟨S3200000x16, .f32⟩
  | .hbm, ⟨26, _⟩ => ⟨S3200000x16, .f32⟩
  | .hbm, ⟨27, _⟩ => ⟨S_, .f32⟩
  | .hbm, ⟨28, _⟩ => ⟨S100000x16, .f32⟩
  | .hbm, ⟨29, _⟩ => ⟨S3200000x1, .i32⟩
  | .hbm, ⟨30, _⟩ => ⟨S100000x16, .f32⟩
  | .hbm, ⟨31, _⟩ => ⟨S1x16, .f32⟩
  | .hbm, ⟨32, _⟩ => ⟨S100000x16, .f32⟩
  | .hbm, ⟨33, _⟩ => ⟨S100000x16, .f32⟩
  | .hbm, ⟨34, _⟩ => ⟨S_, .f32⟩
  | .hbm, ⟨35, _⟩ => ⟨S100000x16, .f32⟩
  | .hbm, ⟨36, _⟩ => ⟨S100000x16, .f32⟩
  | .hbm, ⟨37, _⟩ => ⟨S16x16, .f32⟩
  | .hbm, ⟨38, _⟩ => ⟨S100000x16, .f32⟩
  | .hbm, ⟨39, _⟩ => ⟨S3200000x1, .f32⟩
  | .hbm, ⟨40, _⟩ => ⟨S_, .i32⟩
  | .hbm, ⟨41, _⟩ => ⟨S3200000, .i32⟩
  | .hbm, ⟨42, _⟩ => ⟨S3200000, .i1⟩
  | .hbm, ⟨43, _⟩ => ⟨S_, .i32⟩
  | .hbm, ⟨44, _⟩ => ⟨S3200000, .i32⟩
  | .hbm, ⟨45, _⟩ => ⟨S3200000, .i32⟩
  | .hbm, ⟨46, _⟩ => ⟨S3200000, .i32⟩
  | .hbm, ⟨47, _⟩ => ⟨S3200000x1, .i32⟩
  | .hbm, ⟨48, _⟩ => ⟨S3200000x16, .f32⟩
  | .hbm, ⟨49, _⟩ => ⟨S3200000x16, .f32⟩
  | .hbm, ⟨50, _⟩ => ⟨S3200000x16, .f32⟩
  | .hbm, ⟨51, _⟩ => ⟨S_, .f32⟩
  | .hbm, ⟨52, _⟩ => ⟨S100000x16, .f32⟩
  | .hbm, ⟨53, _⟩ => ⟨S3200000x1, .i32⟩
  | .hbm, ⟨54, _⟩ => ⟨S100000x16, .f32⟩
  | .hbm, ⟨55, _⟩ => ⟨S1x16, .f32⟩
  | .hbm, ⟨56, _⟩ => ⟨S100000x16, .f32⟩
  | .hbm, ⟨57, _⟩ => ⟨S100000x16, .f32⟩
  | .hbm, ⟨58, _⟩ => ⟨S_, .f32⟩
  | .hbm, ⟨59, _⟩ => ⟨S100000x16, .f32⟩
  | .hbm, ⟨60, _⟩ => ⟨S100000x16, .f32⟩
  | .hbm, ⟨61, _⟩ => ⟨S16x8, .f32⟩
  | .hbm, ⟨62, _⟩ => ⟨S100000x8, .f32⟩
  | .hbm, ⟨63, _⟩ => ⟨S1x8, .f32⟩
  | .hbm, ⟨64, _⟩ => ⟨S100000x8, .f32⟩
  | .hbm, ⟨65, _⟩ => ⟨S100000x8, .f32⟩
  | .hbm, ⟨66, _⟩ => ⟨S_, .f32⟩
  | .hbm, ⟨67, _⟩ => ⟨S100000, .f32⟩
  | .hbm, ⟨68, _⟩ => ⟨S_, .f32⟩
  | .hbm, ⟨69, _⟩ => ⟨S100000, .f32⟩
  | .hbm, ⟨70, _⟩ => ⟨S100000, .f32⟩
  | .hbm, ⟨71, _⟩ => ⟨S100000x1, .f32⟩
  | .hbm, ⟨72, _⟩ => ⟨S100000x8, .f32⟩
  | .hbm, ⟨73, _⟩ => ⟨S100000x8, .f32⟩
  | .hbm, ⟨74, _⟩ => ⟨S100000x8, .f32⟩
  | .hbm, ⟨75, _⟩ => ⟨S_, .f32⟩
  | .hbm, ⟨76, _⟩ => ⟨S100000, .f32⟩
  | .hbm, ⟨77, _⟩ => ⟨S100000x1, .f32⟩
  | .hbm, ⟨78, _⟩ => ⟨S100000x8, .f32⟩
  | .hbm, ⟨79, _⟩ => ⟨S100000x8, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_c_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_cst : Ref sig .tc := ⟨.hbm, 34, rfl⟩
abbrev main_call0_v0 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_1 : Ref sig .tc := ⟨.hbm, 40, rfl⟩
abbrev main_v26 : Ref sig .tc := ⟨.hbm, 41, rfl⟩
abbrev main_v27 : Ref sig .tc := ⟨.hbm, 42, rfl⟩
abbrev main_c_2 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_3 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_call1_cst : Ref sig .tc := ⟨.hbm, 58, rfl⟩
abbrev main_call1_v0 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_4 : Ref sig .tc := ⟨.hbm, 66, rfl⟩
abbrev main_v47 : Ref sig .tc := ⟨.hbm, 67, rfl⟩
abbrev main_cst_5 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_6 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  transposes_S16x128_S128x16_1_0 : S16x128.Transposes [1, 0] S128x16
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  transposes_S16x16_S16x16_1_0 : S16x16.Transposes [1, 0] S16x16
  transposes_S8x16_S16x8_1_0 : S8x16.Transposes [1, 0] S16x8
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  reducesTo_S100000x8_S100000_d1 : S100000x8.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x8_0_1 : S100000x1.BroadcastsInDim S100000x8 (![0, 1] : Fin 2 → Fin S100000x8.rank)
  dot_S100000x128_S128x16_S100000x16_1_0_0_1_n_n_wf : DotDims.WF S100000x128 S128x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x16_S100000x16_1_0_0_1_n_n_wf : DotDims.WF S100000x16 S16x16 S100000x16 [1] [0] [0] [1] [] []
  dot_S100000x16_S16x8_S100000x8_1_0_0_1_n_n_wf : DotDims.WF S100000x16 S16x8 S100000x8 [1] [0] [0] [1] [] []

variable [Facts₀]

def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def dot_S100000x16_S16x8_S100000x8_1_0_0_1_n_n : DotDims S100000x16 S16x8 S100000x8 where
  lhsContracting := [1]
  rhsContracting := [0]
  lhsNonContracting := [0]
  rhsNonContracting := [1]
  lhsBatch := []
  rhsBatch := []
  wf := dot_S100000x16_S16x8_S100000x8_1_0_0_1_n_n_wf

class Facts : Prop extends Facts₀ where

variable [Facts]
-- ==== Proof.LibPlainMatmul.lean ====
/-
  A plain matrix product `[M, K] · [K, N]` on the extended reals, accumulated into the zero matrix, read at the entry
  `(p, q)`: the sum over `k : Fin K` of `l (p, k) · r (k, q)`.

  The library states a `tpu.matmul` at an output index as a sum over the contraction shape's index set, with the
  operands read at `lhsIdx` / `rhsIdx`; for the dimension numbers `⟨[1], [0], [0], [1], [], []⟩` that index set is
  one axis of extent `K`, the left index is `(p, k)` and the right index is `(k, q)`. The statement takes any
  dimension record equal to `DotDims.plain M K N` (a record is determined by its six lists, so a printed one with these
  lists is equal to it by `rfl`).
-/
import Idealize.ShloMosaic.PureOps.Ideal.Laws
import Idealize.ShloMosaic.Lib.ValueIdx

noncomputable section

open scoped BigOperators

namespace Cert.LibPlainMatmul

open Idealize.ShloMosaic Idealize.ShloMosaic.ValueIdx

/-- The left operand's index of the plain product at output `(p, q)` and contraction coordinate `k` is `(p, k)`. -/
theorem plain_lhsIdx {M K N : ℕ} (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index there is `(k, q)`. -/
theorem plain_rhsIdx {M K N : ℕ} (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A plain `[M, K] · [K, N]` product into the zero accumulator, at `(p, q)`, is `∑ k, l (p, k) · r (k, q)`. -/
theorem matmul_plain_zero_apply {M K N : ℕ} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (p : Fin M) (q : Fin N) :
    FloatOps.matmul D prec l r (constant ⟨2, ![M, N]⟩ .f32 0x00000000#32) (ix2 p q)
      = ∑ k : Fin K, l (ix2 p k) * r (ix2 k q) := by
  subst hD
  rw [Ideal.matmul_constant_zero_apply, ← Equiv.sum_comp (contrEquiv1 (DotDims.plain M K N) K rfl rfl).symm]
  refine Finset.sum_congr rfl fun k _ => ?_
  rw [plain_lhsIdx, plain_rhsIdx]

end Cert.LibPlainMatmul

end
-- ==== Proof.LibColumn.lean ====
/-
  Column vectors read at an index.

  A vector of length `a` re-laid as an `a × 1` column holds, at row `i`, the vector's entry `i`.
  An `a × 1` column broadcast to `a × b` holds, at `(p, c)`, the column's entry at row `p`.
  Summing an `a × 1` column over its rows, or an `a × b` array over its columns, inserts the summed
  coordinate at the place the reduced index leaves open: the inserted index is `(k, u)` resp. `(r, k)`.
-/
import Idealize.ShloMosaic.Lib.Pipeline.Value
import Idealize.ShloMosaic.Lib.ValueIdx
import Idealize.ShloMosaic.PureOps.Reduce

namespace Cert.LibColumn

open Idealize.ShloMosaic Idealize.ShloMosaic.ValueIdx

variable {α : Type}

/-- A length-`a` vector cast to an `a × 1` column reads, at `(i, 0)`, the vector at `i`:
    both positions are number `i` in row-major order. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Summing an `a × b` array along its columns: the index of row `r` with column `k` put back is `(r, k)`. -/
theorem lift_cols {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Summing an `a × 1` column along its rows: the one reduced index with row `k` put back is `(k, 0)`. -/
theorem lift_rows {a : ℕ} (h : (⟨2, ![a, 1]⟩ : Shape).Reduces [0] (⟨1, ![1]⟩ : Shape)) (u : Fin 1)
    (k : Fin ((⟨2, ![a, 1]⟩ : Shape).size 0)) : h.lift (ix1 u) k = ix2 (⟨k.val, k.isLt⟩ : Fin a) u := by
  funext c; apply Fin.ext
  fin_cases c <;> rfl

end Cert.LibColumn
-- ==== Proof.RowSpec.lean ====
/-
  The row functions of a two-layer graph convolution with a softmax head, on the extended reals.

  Every dense stage of the network acts on the rows of a node array independently: output row `P` is a function of
  input row `P` and of the small weight and bias arrays only. The functions below are those per-row functions; both
  programs are read, entry by entry, as one of them applied to a row.
-/
import Idealize.ShloMosaic.PureOps.Ideal.Laws
import Idealize.ShloMosaic.Lib.ValueIdx

noncomputable section

open scoped BigOperators

namespace Cert.RowSpec

open Idealize.ShloMosaic

/-- The rectifier's floor: the value of the f32 word `+0.0`. -/
abbrev floorWord : EReal := Ideal.ofBits .f32 0x00000000#32

/-- The value the row maximum starts from: the value of the f32 word of `-∞`. -/
abbrev negInfWord : EReal := Ideal.ofBits .f32 0xFF800000#32

/-- One entry of a rectified dense row: `∑ k, max (a k + b k) 0 · w k` for a row `a`, a bias `b` and one row `w` of the
    weight matrix. -/
def hiddenDot {K : ℕ} (a b w : Fin K → EReal) : EReal := ∑ k : Fin K, max (a k + b k) floorWord * w k

/-- The maximum of a row, folded from `-∞`. -/
def rowMax {N : ℕ} (l : Fin N → EReal) : EReal := (Finset.univ : Finset (Fin N)).fold max negInfWord l

/-- Entry `q` of the softmax of a row `l`: `exp (l q - max l) / ∑ j, exp (l j - max l)`. -/
def softmaxAt {N : ℕ} (l : Fin N → EReal) (q : Fin N) : EReal :=
  Ideal.div (Ideal.exp (l q - rowMax l)) (∑ j : Fin N, Ideal.exp (l j - rowMax l))

/-- Taking the maximum with the fold's starting value once more changes nothing. -/
theorem max_negInf_rowMax {N : ℕ} (l : Fin N → EReal) : max negInfWord (rowMax l) = rowMax l :=
  max_eq_right ((Finset.le_fold_max _).mpr (Or.inl le_rfl))

end Cert.RowSpec

end
-- ==== Proof.KerRows.lean ====
/-
  The three kernel bodies read at one entry of their output block.

  Each body computes its block row by row: entry `(p, q)` of the stored block is a row function (`Cert.RowSpec`) of row `p`
  of the first input block and of the whole weight and bias blocks. The conversions to bf16 before a product are the
  identity on the extended reals, a product with the transposed weights reads the weights at `(q, k)`, and a bias row
  `[1, n]` broadcast down the block is read at `(0, k)`.
-/
import proofs.«111323_j32719060861599_2_alg».proof.Proof.Gen.KernelIdeal.Skeleton
import proofs.«111323_j32719060861599_2_alg».proof.Proof.LibPlainMatmul
import proofs.«111323_j32719060861599_2_alg».proof.Proof.LibColumn
import proofs.«111323_j32719060861599_2_alg».proof.Proof.RowSpec
import Idealize.ShloMosaic.Lib.ValueLayout
import Idealize.ShloMosaic.PureOps.Ideal.Laws

noncomputable section

open scoped BigOperators

namespace Cert.KernelIdeal.Rows

open Idealize.ShloMosaic Idealize.ShloMosaic.ValueIdx Cert.KernelIdeal Cert.KernelIdeal.Gen Cert.RowSpec

variable [Cert.KernelIdeal.Facts]

/-- The projection body: entry `(p, q)` is row `p` of the features against row `q` of the weights. -/
theorem proj_at (x0 : Vec Ideal S10000x128 .f32) (x1 : Vec Ideal S16x128 .f32) (p : Fin 10000) (q : Fin 16) :
    k0_pay1 (F := Ideal) x0 x1 (ix2 p q) = ∑ k : Fin 128, x0 (ix2 p k) * x1 (ix2 q k) := by
  unfold k0_pay1
  refine (Cert.LibPlainMatmul.matmul_plain_zero_apply dot_S10000x128_S128x16_S10000x16_1_0_0_1_n_n rfl none _ _ p q).trans ?_
  refine Finset.sum_congr rfl fun k _ => ?_
  rw [transpose_ix2_apply]
  rfl

/-- The rectified input of the second and third bodies at `(p, k)`. -/
theorem rect_at (x0 : Vec Ideal S10000x16 .f32) (x1 : Vec Ideal S1x16 .f32) (p : Fin 10000) (k : Fin 16) :
    (truncf .bf16 (maximumf (addf (shapeCast S10000x16 x0 shapeCasts_S10000x16_S10000x16)
        (broadcastTo S10000x16 (shapeCast S1x16 x1 shapeCasts_S1x16_S1x16) broadcasts_S1x16_S10000x16))
      (broadcast S10000x16 (Scalar.ofBits (F := Ideal) .f32 0x00000000#32))) bitsLt_bf16_f32 : FVec Ideal S10000x16 .bf16) (ix2 p k)
      = max (x0 (ix2 p k) + x1 (ix2 (0 : Fin 1) k)) floorWord := by
  rw [truncf_apply, maximumf_apply, addf_apply, shapeCast_self, shapeCast_self, broadcastTo_1b_ab_apply, broadcast_apply]
  rfl

/-- The hidden-layer body: entry `(p, q)` is the rectified row `p` against row `q` of the weights. -/
theorem hidden_at (x0 : Vec Ideal S10000x16 .f32) (x1 : Vec Ideal S1x16 .f32) (x2 : Vec Ideal S16x16 .f32) (p : Fin 10000) (q : Fin 16) :
    k1_pay1 (F := Ideal) x0 x1 x2 (ix2 p q)
      = hiddenDot (fun k => x0 (ix2 p k)) (fun k => x1 (ix2 (0 : Fin 1) k)) (fun k => x2 (ix2 q k)) := by
  unfold k1_pay1 hiddenDot
  refine (Cert.LibPlainMatmul.matmul_plain_zero_apply dot_S10000x16_S16x16_S10000x16_1_0_0_1_n_n rfl none _ _ p q).trans ?_
  refine Finset.sum_congr rfl fun k _ => ?_
  rw [rect_at, transpose_ix2_apply]
  rfl

end Cert.KernelIdeal.Rows

end
-- ==== Proof.Blocks0.lean ====
/-
  The projection region: from row blocks to the whole array.

  The region runs over ten grid points. At point `t` the first window holds rows `10000·t … 10000·t + 9999` of the
  feature array, the second window the whole weight array, and the output window's block is the same range of rows of
  the result. Since the body computes a block row by row, what point `t` writes back is that range of rows of ANY array
  whose entry `(P, q)` is row `P` of the features against row `q` of the weights; the ten blocks tile the result, so
  the result is that array.
-/
import proofs.«111323_j32719060861599_2_alg».proof.Proof.Gen.KernelIdeal.Frame
import proofs.«111323_j32719060861599_2_alg».proof.Proof.KerRows
import Idealize.ShloMosaic.Lib.Pipeline.Value

set_option maxRecDepth 16384

noncomputable section

open scoped BigOperators

namespace Cert.KernelIdeal.Blocks

open Idealize.ShloMosaic Idealize.ShloMosaic.TcCoe Idealize.ShloMosaic.ValueIdx Idealize.SL.Sem
open Cert.KernelIdeal Cert.KernelIdeal.Gen Cert.RowSpec

variable (V : (c : Dev nD) → (b : Ref sig .tc) → Buf (Elt Ideal) ((c : Thread nD τ).loc b))

theorem origin2 : (![0, 0] : Fin 2 → Nat) = fun _ => 0 := funext fun a => by fin_cases a <;> rfl

/-- The printed index maps of the projection region over its grid: the row windows sit at block row `t`, the weight
    window at the origin. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem lt_N0 (t : Fin cfg0.N) : t.val < 10 := lt_of_lt_of_eq t.isLt N_0

/-- Row `p` of the feature block at point `t` is row `10000·t + p` of the feature array. -/
theorem rows0 (c : Dev nD) (X : S100000x128.Idx → EReal) (hX : V c main_arg0 = X) (t : Fin cfg0.N) (p : Fin 10000) (k : Fin 128)
    (hP : t.val * 10000 + p.val < 100000) :
    iblk0 V c 0 t (ix2 p k) = X (ix2 ⟨t.val * 10000 + p.val, hP⟩ k) := by
  obtain ⟨e0, e1, -, -, -, -⟩ := idx0 t
  show V c main_arg0 (((cfg0.win 0).blk t).view.emb (ix2 p k)) = _
  refine (congrFun hX _).trans (congrArg X (funext fun a => Fin.ext ?_))
  match a with
  | ⟨0, _⟩ => show win0_0.index t (0 : Fin 2) * 10000 + 1 * p.val = t.val * 10000 + p.val; omega
  | ⟨1, _⟩ => show win0_0.index t (1 : Fin 2) * 128 + 1 * k.val = k.val; omega

/-- The weight block at every point is the weight array. -/
theorem whole0_1 (c : Dev nD) (W : S16x128.Idx → EReal) (hW : V c main_arg3 = W) (t : Fin cfg0.N) (q : Fin 16) (k : Fin 128) :
    iblk0 V c 1 t (ix2 q k) = W (ix2 q k) := by
  obtain ⟨-, -, e2, e3, -, -⟩ := idx0 t
  show V c main_arg3 (((cfg0.win 1).blk t).view.emb (ix2 q k)) = _
  refine (congrFun hW _).trans (congrArg W (funext fun a => Fin.ext ?_))
  match a with
  | ⟨0, _⟩ => show win0_1.index t (0 : Fin 2) * 16 + 1 * q.val = q.val; omega
  | ⟨1, _⟩ => show win0_1.index t (1 : Fin 2) * 128 + 1 * k.val = k.val; omega

/-- What point `t` writes back is block `t` of an array with the projection's entries. -/
theorem flushed0 (c : Dev nD) (X : S100000x128.Idx → EReal) (W : S16x128.Idx → EReal) (hX : V c main_arg0 = X) (hW : V c main_arg3 = W)
    (G : S100000x16.Idx → EReal)
    (hG : ∀ (P : Fin 100000) (q : Fin 16), G (ix2 P q) = ∑ k : Fin 128, X (ix2 P k) * W (ix2 q k))
    (t : Fin cfg0.N) :
    (dat0 V c).flushed 2 t = ((cfg0.win 2).blk t).view.read (Elt Ideal) G := by
  show (cfg0.win 2).cut (grid0.coords t) ((dat0 V c).after 2 t) = _
  rw [after0_2]
  unfold out0_2
  rw [View.canon_unit_zero origin2]
  simp only [View.ld_unit_zero (S := S10000x128) origin2, View.ld_unit_zero (S := S16x128) origin2]
  obtain ⟨-, -, -, -, e4, e5⟩ := idx0 t
  have hN := lt_N0 t
  funext j
  obtain ⟨p, q, rfl⟩ : ∃ (p : Fin 10000) (q : Fin 16), j = ix2 p q := ⟨j 0, j 1, eq_ix2 j⟩
  have hP : t.val * 10000 + p.val < 100000 := by have := p.isLt; omega
  have hemb : ((cfg0.win 2).blk t).view.emb (ix2 p q) = ix2 (⟨t.val * 10000 + p.val, hP⟩ : Fin 100000) q :=
    funext fun a => Fin.ext (by
      match a with
      | ⟨0, _⟩ => show win0_2.index t (0 : Fin 2) * 10000 + 1 * p.val = t.val * 10000 + p.val; omega
      | ⟨1, _⟩ => show win0_2.index t (1 : Fin 2) * 16 + 1 * q.val = q.val; omega)
  show k0_pay1 (F := Ideal) (iblk0 V c 0 t) (iblk0 V c 1 t) (ix2 p q) = G (((cfg0.win 2).blk t).view.emb (ix2 p q))
  rw [hemb, hG]
  refine (Rows.proj_at (iblk0 V c 0 t) (iblk0 V c 1 t) p q).trans ?_
  refine Finset.sum_congr rfl fun k _ => ?_
  rw [rows0 V c X hX t p k hP, whole0_1 V c W hW t q k]

/-- An index of the result is in point `t`'s block iff each coordinate is in the block's range on its axis. -/
theorem mem_blk0 (t : Fin cfg0.N) (i : S100000x16.Idx) :
    i ∈ ((cfg0.win 2).blk t).view.set ↔ ∀ a : Fin 2, win0_2.index t a * S10000x16.size a ≤ (i a).val
      ∧ (i a).val < win0_2.index t a * S10000x16.size a + S10000x16.size a := by
  show i ∈ ((View.whole main_v4).slice (win0_2.rect t)).set ↔ _
  rw [View.set_slice_whole, Rect.mem_set_unit]
  exact Iff.rfl

/-- Row `r` of the result lies in the block of point `r / 10000`. -/
theorem cover0 (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have ht : (i 0).val / 10000 < cfg0.N := by rw [show cfg0.N = 10 from N_0]; omega
  obtain ⟨-, -, -, -, e4, e5⟩ := idx0 ⟨(i 0).val / 10000, ht⟩
  refine ⟨⟨(i 0).val / 10000, ht⟩, flush0_2 _, ?_⟩
  rw [mem_blk0]
  intro a
  match a with
  | ⟨0, _⟩ =>
    show win0_2.index ⟨(i 0).val / 10000, ht⟩ (0 : Fin 2) * 10000 ≤ (i 0).val
      ∧ (i 0).val < win0_2.index ⟨(i 0).val / 10000, ht⟩ (0 : Fin 2) * 10000 + 10000
    rw [e4]
    show (i 0).val / 10000 * 10000 ≤ (i 0).val ∧ (i 0).val < (i 0).val / 10000 * 10000 + 10000
    omega
  | ⟨1, _⟩ =>
    show win0_2.index ⟨(i 0).val / 10000, ht⟩ (1 : Fin 2) * 16 ≤ (i 1).val
      ∧ (i 1).val < win0_2.index ⟨(i 0).val / 10000, ht⟩ (1 : Fin 2) * 16 + 16
    omega

/-- The projection region's result array: any array with the projection's entries. -/
theorem final0 (c : Dev nD) (X : S100000x128.Idx → EReal) (W : S16x128.Idx → EReal) (hX : V c main_arg0 = X) (hW : V c main_arg3 = W)
    (G : S100000x16.Idx → EReal)
    (hG : ∀ (P : Fin 100000) (q : Fin 16), G (ix2 P q) = ∑ k : Fin 128, X (ix2 P k) * W (ix2 q k)) :
    (dat0 V c).arrAt 2 cfg0.N = G :=
  (dat0 V c).arrAt_eq_of_cover 2 G (fun t _ => flushed0 V c X W hX hW G hG t) cover0

end Cert.KernelIdeal.Blocks

end
-- ==== Proof.Blocks1.lean ====
/-
  The hidden-layer region: from row blocks to the whole array.

  As in the projection region, point `t` of the ten-point grid holds rows `10000·t … 10000·t + 9999` of the aggregated
  messages in its first window and writes the same rows of the result; the bias row and the weight matrix are whole in
  their windows at every point. The body works row by row, so the result is any array whose entry `(P, q)` is the
  rectified row `P` of the aggregated messages against row `q` of the weights.
-/
import proofs.«111323_j32719060861599_2_alg».proof.Proof.Gen.KernelIdeal.Frame
import proofs.«111323_j32719060861599_2_alg».proof.Proof.KerRows
import proofs.«111323_j32719060861599_2_alg».proof.Proof.Blocks0
import Idealize.ShloMosaic.Lib.Pipeline.Value

set_option maxRecDepth 16384

noncomputable section

open scoped BigOperators

namespace Cert.KernelIdeal.Blocks

open Idealize.ShloMosaic Idealize.ShloMosaic.TcCoe Idealize.ShloMosaic.ValueIdx Idealize.SL.Sem
open Cert.KernelIdeal Cert.KernelIdeal.Gen Cert.RowSpec

variable (V : (c : Dev nD) → (b : Ref sig .tc) → Buf (Elt Ideal) ((c : Thread nD τ).loc b))

/-- The printed index maps of the region over its grid: the two row windows sit at block row `t`, every other window
    at the origin. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem lt_N1 (t : Fin cfg1.N) : t.val < 10 := lt_of_lt_of_eq t.isLt N_1

/-- Row `p` of the first block at point `t` is row `10000·t + p` of the region's first array. -/
theorem rows1 (c : Dev nD) (A : S100000x16.Idx → EReal) (hA : V c main_v17 = A) (t : Fin cfg1.N) (p : Fin 10000) (k : Fin 16)
    (hP : t.val * 10000 + p.val < 100000) :
    iblk1 V c 0 t (ix2 p k) = A (ix2 ⟨t.val * 10000 + p.val, hP⟩ k) := by
  have e := idx1 t
  show V c main_v17 (((cfg1.win 0).blk t).view.emb (ix2 p k)) = _
  refine (congrFun hA _).trans (congrArg A (funext fun ax => Fin.ext ?_))
  match ax with
  | ⟨0, _⟩ => show win1_0.index t (0 : Fin 2) * 10000 + 1 * p.val = t.val * 10000 + p.val; omega
  | ⟨1, _⟩ => show win1_0.index t (1 : Fin 2) * 16 + 1 * k.val = k.val; omega

/-- The bias block at every point is the whole bias array. -/
theorem whole1_1 (c : Dev nD) (Y : S1x16.Idx → EReal) (hY : V c main_v18 = Y) (t : Fin cfg1.N) (a : Fin 1) (b : Fin 16) :
    iblk1 V c 1 t (ix2 a b) = Y (ix2 a b) := by
  have e := idx1 t
  show V c main_v18 (((cfg1.win 1).blk t).view.emb (ix2 a b)) = _
  refine (congrFun hY _).trans (congrArg Y (funext fun ax => Fin.ext ?_))
  match ax with
  | ⟨0, _⟩ => show win1_1.index t (0 : Fin 2) * 1 + 1 * a.val = a.val; omega
  | ⟨1, _⟩ => show win1_1.index t (1 : Fin 2) * 16 + 1 * b.val = b.val; omega

/-- The weight block at every point is the whole weight array. -/
theorem whole1_2 (c : Dev nD) (Y : S16x16.Idx → EReal) (hY : V c main_arg5 = Y) (t : Fin cfg1.N) (a : Fin 16) (b : Fin 16) :
    iblk1 V c 2 t (ix2 a b) = Y (ix2 a b) := by
  have e := idx1 t
  show V c main_arg5 (((cfg1.win 2).blk t).view.emb (ix2 a b)) = _
  refine (congrFun hY _).trans (congrArg Y (funext fun ax => Fin.ext ?_))
  match ax with
  | ⟨0, _⟩ => show win1_2.index t (0 : Fin 2) * 16 + 1 * a.val = a.val; omega
  | ⟨1, _⟩ => show win1_2.index t (1 : Fin 2) * 16 + 1 * b.val = b.val; omega

/-- What point `t` writes back is block `t` of an array with the hidden layer's entries. -/
theorem flushed1 (c : Dev nD) (A : S100000x16.Idx → EReal) (B : S1x16.Idx → EReal) (W : S16x16.Idx → EReal)
    (hA : V c main_v17 = A) (hB : V c main_v18 = B) (hW : V c main_arg5 = W) (G : S100000x16.Idx → EReal)
    (hG : ∀ (P : Fin 100000) (q : Fin 16), G (ix2 P q)
      = hiddenDot (fun k => A (ix2 P k)) (fun k => B (ix2 (0 : Fin 1) k)) (fun k => W (ix2 q k)))
    (t : Fin cfg1.N) :
    (dat1 V c).flushed 3 t = ((cfg1.win 3).blk t).view.read (Elt Ideal) G := by
  show (cfg1.win 3).cut (grid1.coords t) ((dat1 V c).after 3 t) = _
  rw [after1_3]
  unfold out1_3
  rw [View.canon_unit_zero origin2]
  simp only [View.ld_unit_zero (S := S10000x16) origin2, View.ld_unit_zero (S := S1x16) origin2,
    View.ld_unit_zero (S := S16x16) origin2]
  have e := idx1 t
  have hN := lt_N1 t
  funext j
  obtain ⟨p, q, rfl⟩ : ∃ (p : Fin 10000) (q : Fin 16), j = ix2 p q := ⟨j 0, j 1, eq_ix2 j⟩
  have hP : t.val * 10000 + p.val < 100000 := by have := p.isLt; omega
  have hemb : ((cfg1.win 3).blk t).view.emb (ix2 p q) = ix2 (⟨t.val * 10000 + p.val, hP⟩ : Fin 100000) q :=
    funext fun a => Fin.ext (by
      match a with
      | ⟨0, _⟩ => show win1_3.index t (0 : Fin 2) * 10000 + 1 * p.val = t.val * 10000 + p.val; omega
      | ⟨1, _⟩ => show win1_3.index t (1 : Fin 2) * 16 + 1 * q.val = q.val; omega)
  show k1_pay1 (F := Ideal) (iblk1 V c 0 t) (iblk1 V c 1 t) (iblk1 V c 2 t) (ix2 p q) = G (((cfg1.win 3).blk t).view.emb (ix2 p q))
  rw [hemb, hG]
  refine (Rows.hidden_at (iblk1 V c 0 t) (iblk1 V c 1 t) (iblk1 V c 2 t) p q).trans ?_
  exact congr (congr (congrArg hiddenDot (funext fun k => rows1 V c A hA t p k hP))
    (funext fun k => whole1_1 V c B hB t 0 k)) (funext fun k => whole1_2 V c W hW t q k)

/-- An index of the result is in point `t`'s block iff each coordinate is in the block's range on its axis. -/
theorem mem_blk1 (t : Fin cfg1.N) (i : S100000x16.Idx) :
    i ∈ ((cfg1.win 3).blk t).view.set ↔ ∀ a : Fin 2, win1_3.index t a * S10000x16.size a ≤ (i a).val
      ∧ (i a).val < win1_3.index t a * S10000x16.size a + S10000x16.size a := by
  show i ∈ ((View.whole main_v19).slice (win1_3.rect t)).set ↔ _
  rw [View.set_slice_whole, Rect.mem_set_unit]
  exact Iff.rfl

/-- Row `r` of the result lies in the block of point `r / 10000`. -/
theorem cover1 (i : S100000x16.Idx) :
    ∃ t : Fin cfg1.N, (cfg1.win 3).flush t = true ∧ i ∈ ((cfg1.win 3).blk t).view.set := by
  have hi0 : (i 0).val < 100000 := (i 0).isLt
  have hi1 : (i 1).val < 16 := (i 1).isLt
  have ht : (i 0).val / 10000 < cfg1.N := by rw [show cfg1.N = 10 from N_1]; omega
  have e := idx1 ⟨(i 0).val / 10000, ht⟩
  refine ⟨⟨(i 0).val / 10000, ht⟩, flush1_3 _, ?_⟩
  rw [mem_blk1]
  intro a
  match a with
  | ⟨0, _⟩ =>
    show win1_3.index ⟨(i 0).val / 10000, ht⟩ (0 : Fin 2) * 10000 ≤ (i 0).val
      ∧ (i 0).val < win1_3.index ⟨(i 0).val / 10000, ht⟩ (0 : Fin 2) * 10000 + 10000
    rw [e.2.2.2.2.2.2.1]
    show (i 0).val / 10000 * 10000 ≤ (i 0).val ∧ (i 0).val < (i 0).val / 10000 * 10000 + 10000
    omega
  | ⟨1, _⟩ =>
    show win1_3.index ⟨(i 0).val / 10000, ht⟩ (1 : Fin 2) * 16 ≤ (i 1).val
      ∧ (i 1).val < win1_3.index ⟨(i 0).val / 10000, ht⟩ (1 : Fin 2) * 16 + 16
    omega

/-- The hidden-layer region's result array: any array with the hidden layer's entries. -/
theorem final1 (c : Dev nD) (A : S100000x16.Idx → EReal) (B : S1x16.Idx → EReal) (W : S16x16.Idx → EReal)
    (hA : V c main_v17 = A) (hB : V c main_v18 = B) (hW : V c main_arg5 = W) (G : S100000x16.Idx → EReal)
    (hG : ∀ (P : Fin 100000) (q : Fin 16), G (ix2 P q)
      = hiddenDot (fun k => A (ix2 P k)) (fun k => B (ix2 (0 : Fin 1) k)) (fun k => W (ix2 q k))) :
    (dat1 V c).arrAt 3 cfg1.N = G :=
  (dat1 V c).arrAt_eq_of_cover 3 G (fun t _ => flushed1 V c A B W hA hB hW G hG t) cover1

end Cert.KernelIdeal.Blocks

end
-- ==== Proof.KerHead.lean ====
/-
  The head body (bias, rectifier, linear map, softmax) read at one entry of its output block.

  The body forms the logits of every row of its block, subtracts each row's maximum, exponentiates, and divides by the
  row's sum. The row maximum and the row sum are reductions along the eight columns, re-laid as a column and broadcast
  back along the row, so entry `(p, q)` depends on row `p` of the logits only: it is the softmax of that row at `q`.
-/
import proofs.«111323_j32719060861599_2_alg».proof.Proof.KerRows

noncomputable section

open scoped BigOperators

namespace Cert.KernelIdeal.Rows

open Idealize.ShloMosaic Idealize.ShloMosaic.ValueIdx Cert.KernelIdeal Cert.KernelIdeal.Gen Cert.RowSpec

variable [Cert.KernelIdeal.Facts]

/-- The logits the head body forms from its four input blocks. -/
def headLogits (x0 : Vec Ideal S10000x16 .f32) (x1 : Vec Ideal S1x16 .f32) (x2 : Vec Ideal S8x16 .f32) (x3 : Vec Ideal S1x8 .f32) :
    FVec Ideal S10000x8 .f32 :=
  addf (matmul dot_S10000x16_S16x8_S10000x8_1_0_0_1_n_n none
      (truncf .bf16 (maximumf (addf (shapeCast S10000x16 x0 shapeCasts_S10000x16_S10000x16)
          (broadcastTo S10000x16 (shapeCast S1x16 x1 shapeCasts_S1x16_S1x16) broadcasts_S1x16_S10000x16))
        (broadcast S10000x16 (Scalar.ofBits (F := Ideal) .f32 0x00000000#32))) bitsLt_bf16_f32)
      (transpose S16x8 [1, 0] (truncf .bf16 x2 bitsLt_bf16_f32) transposes_S8x16_p1_0_S16x8)
      (constant S10000x8 .f32 0x00000000#32))
    (broadcastTo S10000x8 (shapeCast S1x8 x3 shapeCasts_S1x8_S1x8) broadcasts_S1x8_S10000x8)

/-- Logit `(p, j)`: the rectified row `p` against row `j` of the weights, plus the bias of class `j`. -/
theorem headLogits_at (x0 : Vec Ideal S10000x16 .f32) (x1 : Vec Ideal S1x16 .f32) (x2 : Vec Ideal S8x16 .f32) (x3 : Vec Ideal S1x8 .f32)
    (p : Fin 10000) (j : Fin 8) :
    headLogits x0 x1 x2 x3 (ix2 p j)
      = hiddenDot (fun k => x0 (ix2 p k)) (fun k => x1 (ix2 (0 : Fin 1) k)) (fun k => x2 (ix2 j k)) + x3 (ix2 (0 : Fin 1) j) := by
  unfold headLogits hiddenDot
  rw [addf_apply, broadcastTo_1b_ab_apply, shapeCast_self x3]
  refine congrArg (· + x3 (ix2 (0 : Fin 1) j)) ?_
  refine (Cert.LibPlainMatmul.matmul_plain_zero_apply dot_S10000x16_S16x8_S10000x8_1_0_0_1_n_n rfl none _ _ p j).trans ?_
  refine Finset.sum_congr rfl fun k _ => ?_
  rw [rect_at, transpose_ix2_apply]
  rfl

/-- The softmax along the rows of a block of logits, as the body spells it. -/
def blockSoftmax (L : FVec Ideal S10000x8 .f32) : FVec Ideal S10000x8 .f32 :=
  divf
    (exp (subf L (broadcastTo S10000x8 (shapeCast S10000x1
      (multiReduction .maximumf [1] S10000 L 0xFF800000#32 reduces_S10000x8_S10000 (.inl rfl) rfl)
      shapeCasts_S10000_S10000x1) broadcasts_S10000x1_S10000x8)))
    (broadcastTo S10000x8 (shapeCast S10000x1
      (multiReduction .add [1] S10000
        (exp (subf L (broadcastTo S10000x8 (shapeCast S10000x1
          (multiReduction .maximumf [1] S10000 L 0xFF800000#32 reduces_S10000x8_S10000 (.inl rfl) rfl)
          shapeCasts_S10000_S10000x1) broadcasts_S10000x1_S10000x8)))
        0x00000000#32 reduces_S10000x8_S10000 (.inl rfl) rfl)
      shapeCasts_S10000_S10000x1) broadcasts_S10000x1_S10000x8)

/-- The head body's stored value is the block softmax of its logits. -/
theorem head_eq (x0 : Vec Ideal S10000x16 .f32) (x1 : Vec Ideal S1x16 .f32) (x2 : Vec Ideal S8x16 .f32) (x3 : Vec Ideal S1x8 .f32) :
    k2_pay1 (F := Ideal) x0 x1 x2 x3 = blockSoftmax (headLogits x0 x1 x2 x3) := rfl

/-- The maximum of row `p` of a block, as the lane reduction gives it. -/
theorem blockMax_at (L : FVec Ideal S10000x8 .f32) (p : Fin 10000) :
    multiReduction .maximumf [1] S10000 L 0xFF800000#32 reduces_S10000x8_S10000 (.inl rfl) rfl (ix1 p)
      = rowMax (fun j : Fin 8 => L (ix2 p j)) := by
  refine (Ideal.multiReduction_maximumf_single L 0xFF800000#32 reduces_S10000x8_S10000 (.inl rfl) rfl (ix1 p)).trans ?_
  unfold rowMax
  refine congrArg (Finset.fold max _ · Finset.univ) ?_
  funext k
  show L (reduces_S10000x8_S10000.lift (ix1 p) k) = L (ix2 p k)
  rw [Cert.LibColumn.lift_cols]
  rfl

/-- The sum of row `p` of a block, as the lane reduction gives it. -/
theorem blockSum_at (E : FVec Ideal S10000x8 .f32) (p : Fin 10000) :
    multiReduction .add [1] S10000 E 0x00000000#32 reduces_S10000x8_S10000 (.inl rfl) rfl (ix1 p)
      = ∑ j : Fin 8, E (ix2 p j) := by
  refine (Ideal.multiReduction_add_single E 0x00000000#32 reduces_S10000x8_S10000 (.inl rfl) rfl (ix1 p)).trans ?_
  refine Finset.sum_congr rfl fun k _ => ?_
  rw [Cert.LibColumn.lift_cols]
  rfl

/-- Entry `(p, q)` of the block softmax is the softmax of row `p` at `q`. -/
theorem blockSoftmax_at (L : FVec Ideal S10000x8 .f32) (p : Fin 10000) (q : Fin 8) :
    blockSoftmax L (ix2 p q) = softmaxAt (fun j : Fin 8 => L (ix2 p j)) q := by
  have hshift : ∀ j : Fin 8, (exp (subf L (broadcastTo S10000x8 (shapeCast S10000x1
      (multiReduction .maximumf [1] S10000 L 0xFF800000#32 reduces_S10000x8_S10000 (.inl rfl) rfl)
      shapeCasts_S10000_S10000x1) broadcasts_S10000x1_S10000x8)) : FVec Ideal S10000x8 .f32) (ix2 p j)
      = Ideal.exp (L (ix2 p j) - rowMax (fun j : Fin 8 => L (ix2 p j))) := by
    intro j
    show Ideal.exp (subf L _ (ix2 p j)) = _
    rw [subf_apply, Cert.LibColumn.broadcastTo_a1_ab_apply, Cert.LibColumn.shapeCast_a_a1_apply, blockMax_at]
  unfold blockSoftmax softmaxAt
  rw [divf_apply, hshift, Cert.LibColumn.broadcastTo_a1_ab_apply, Cert.LibColumn.shapeCast_a_a1_apply, blockSum_at]
  refine congrArg (Ideal.div _) (Finset.sum_congr rfl fun j _ => hshift j)

/-- The head body at `(p, q)`: the softmax, at `q`, of the logits of row `p`. -/
theorem head_at (x0 : Vec Ideal S10000x16 .f32) (x1 : Vec Ideal S1x16 .f32) (x2 : Vec Ideal S8x16 .f32) (x3 : Vec Ideal S1x8 .f32)
    (p : Fin 10000) (q : Fin 8) :
    k2_pay1 (F := Ideal) x0 x1 x2 x3 (ix2 p q)
      = softmaxAt (fun j : Fin 8 => hiddenDot (fun k => x0 (ix2 p k)) (fun k => x1 (ix2 (0 : Fin 1) k)) (fun k => x2 (ix2 j k))
          + x3 (ix2 (0 : Fin 1) j)) q := by
  rw [head_eq, blockSoftmax_at]
  refine congrArg (softmaxAt · q) (funext fun j => headLogits_at x0 x1 x2 x3 p j)

end Cert.KernelIdeal.Rows

end
-- ==== Proof.Blocks2.lean ====
/-
  The head region (softmax of the logits): from row blocks to the whole array.

  Point `t` of the ten-point grid holds rows `10000·t … 10000·t + 9999` of the second aggregation in its first window
  and writes the same rows of the class probabilities; the two bias rows and the head's weight matrix are whole in their
  windows at every point. The body works row by row — the maximum and the sum of the softmax run along a row —, so the
  result is any array whose entry `(P, q)` is the softmax, at `q`, of the logits of row `P`.
-/
import proofs.«111323_j32719060861599_2_alg».proof.Proof.Gen.KernelIdeal.Frame
import proofs.«111323_j32719060861599_2_alg».proof.Proof.KerHead
import proofs.«111323_j32719060861599_2_alg».proof.Proof.Blocks0
import Idealize.ShloMosaic.Lib.Pipeline.Value

set_option maxRecDepth 16384

noncomputable section

open scoped BigOperators

namespace Cert.KernelIdeal.Blocks

open Idealize.ShloMosaic Idealize.ShloMosaic.TcCoe Idealize.ShloMosaic.ValueIdx Idealize.SL.Sem
open Cert.KernelIdeal Cert.KernelIdeal.Gen Cert.RowSpec

variable (V : (c : Dev nD) → (b : Ref sig .tc) → Buf (Elt Ideal) ((c : Thread nD τ).loc b))

/-- The printed index maps of the region over its grid: the two row windows sit at block row `t`, every other window
    at the origin. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

theorem lt_N2 (t : Fin cfg2.N) : t.val < 10 := lt_of_lt_of_eq t.isLt N_2

/-- Row `p` of the first block at point `t` is row `10000·t + p` of the region's first array. -/
theorem rows2 (c : Dev nD) (A : S100000x16.Idx → EReal) (hA : V c main_v32 = A) (t : Fin cfg2.N) (p : Fin 10000) (k : Fin 16)
    (hP : t.val * 10000 + p.val < 100000) :
    iblk2 V c 0 t (ix2 p k) = A (ix2 ⟨t.val * 10000 + p.val, hP⟩ k) := by
  have e := idx2 t
  show V c main_v32 (((cfg2.win 0).blk t).view.emb (ix2 p k)) = _
  refine (congrFun hA _).trans (congrArg A (funext fun ax => Fin.ext ?_))
  match ax with
  | ⟨0, _⟩ => show win2_0.index t (0 : Fin 2) * 10000 + 1 * p.val = t.val * 10000 + p.val; omega
  | ⟨1, _⟩ => show win2_0.index t (1 : Fin 2) * 16 + 1 * k.val = k.val; omega

/-- The hidden bias block at every point is the whole hidden bias array. -/
theorem whole2_1 (c : Dev nD) (Y : S1x16.Idx → EReal) (hY : V c main_v33 = Y) (t : Fin cfg2.N) (a : Fin 1) (b : Fin 16) :
    iblk2 V c 1 t (ix2 a b) = Y (ix2 a b) := by
  have e := idx2 t
  show V c main_v33 (((cfg2.win 1).blk t).view.emb (ix2 a b)) = _
  refine (congrFun hY _).trans (congrArg Y (funext fun ax => Fin.ext ?_))
  match ax with
  | ⟨0, _⟩ => show win2_1.index t (0 : Fin 2) * 1 + 1 * a.val = a.val; omega
  | ⟨1, _⟩ => show win2_1.index t (1 : Fin 2) * 16 + 1 * b.val = b.val; omega

/-- The weight block at every point is the whole weight array. -/
theorem whole2_2 (c : Dev nD) (Y : S8x16.Idx → EReal) (hY : V c main_arg7 = Y) (t : Fin cfg2.N) (a : Fin 8) (b : Fin 16) :
    iblk2 V c 2 t (ix2 a b) = Y (ix2 a b) := by
  have e := idx2 t
  show V c main_arg7 (((cfg2.win 2).blk t).view.emb (ix2 a b)) = _
  refine (congrFun hY _).trans (congrArg Y (funext fun ax => Fin.ext ?_))
  match ax with
  | ⟨0, _⟩ => show win2_2.index t (0 : Fin 2) * 8 + 1 * a.val = a.val; omega
  | ⟨1, _⟩ => show win2_2.index t (1 : Fin 2) * 16 + 1 * b.val = b.val; omega

/-- The class bias block at every point is the whole class bias array. -/
theorem whole2_3 (c : Dev nD) (Y : S1x8.Idx → EReal) (hY : V c main_v34 = Y) (t : Fin cfg2.N) (a : Fin 1) (b : Fin 8) :
    iblk2 V c 3 t (ix2 a b) = Y (ix2 a b) := by
  have e := idx2 t
  show V c main_v34 (((cfg2.win 3).blk t).view.emb (ix2 a b)) = _
  refine (congrFun hY _).trans (congrArg Y (funext fun ax => Fin.ext ?_))
  match ax with
  | ⟨0, _⟩ => show win2_3.index t (0 : Fin 2) * 1 + 1 * a.val = a.val; omega
  | ⟨1, _⟩ => show win2_3.index t (1 : Fin 2) * 8 + 1 * b.val = b.val; omega

/-- What point `t` writes back is block `t` of an array with the head's entries. -/
theorem flushed2 (c : Dev nD) (A : S100000x16.Idx → EReal) (B : S1x16.Idx → EReal) (W : S8x16.Idx → EReal) (C : S1x8.Idx → EReal)
    (hA : V c main_v32 = A) (hB : V c main_v33 = B) (hW : V c main_arg7 = W) (hC : V c main_v34 = C) (G : S100000x8.Idx → EReal)
    (hG : ∀ (P : Fin 100000) (q : Fin 8), G (ix2 P q)
      = softmaxAt (fun j : Fin 8 => hiddenDot (fun k => A (ix2 P k)) (fun k => B (ix2 (0 : Fin 1) k)) (fun k => W (ix2 j k))
        + C (ix2 (0 : Fin 1) j)) q)
    (t : Fin cfg2.N) :
    (dat2 V c).flushed 4 t = ((cfg2.win 4).blk t).view.read (Elt Ideal) G := by
  show (cfg2.win 4).cut (grid2.coords t) ((dat2 V c).after 4 t) = _
  rw [after2_4]
  unfold out2_4
  rw [View.canon_unit_zero origin2]
  simp only [View.ld_unit_zero (S := S10000x16) origin2, View.ld_unit_zero (S := S1x16) origin2,
    View.ld_unit_zero (S := S8x16) origin2, View.ld_unit_zero (S := S1x8) origin2]
  have e := idx2 t
  have hN := lt_N2 t
  funext j
  obtain ⟨p, q, rfl⟩ : ∃ (p : Fin 10000) (q : Fin 8), j = ix2 p q := ⟨j 0, j 1, eq_ix2 j⟩
  have hP : t.val * 10000 + p.val < 100000 := by have := p.isLt; omega
  have hemb : ((cfg2.win 4).blk t).view.emb (ix2 p q) = ix2 (⟨t.val * 10000 + p.val, hP⟩ : Fin 100000) q :=
    funext fun a => Fin.ext (by
      match a with
      | ⟨0, _⟩ => show win2_4.index t (0 : Fin 2) * 10000 + 1 * p.val = t.val * 10000 + p.val; omega
      | ⟨1, _⟩ => show win2_4.index t (1 : Fin 2) * 8 + 1 * q.val = q.val; omega)
  show k2_pay1 (F := Ideal) (iblk2 V c 0 t) (iblk2 V c 1 t) (iblk2 V c 2 t) (iblk2 V c 3 t) (ix2 p q)
    = G (((cfg2.win 4).blk t).view.emb (ix2 p q))
  rw [hemb, hG]
  refine (Rows.head_at (iblk2 V c 0 t) (iblk2 V c 1 t) (iblk2 V c 2 t) (iblk2 V c 3 t) p q).trans ?_
  refine congrArg (softmaxAt · q) (funext fun j => ?_)
  exact congr (congrArg (· + ·) (congr (congr (congrArg hiddenDot (funext fun k => rows2 V c A hA t p k hP))
    (funext fun k => whole2_1 V c B hB t 0 k)) (funext fun k => whole2_2 V c W hW t j k))) (whole2_3 V c C hC t 0 j)

/-- An index of the result is in point `t`'s block iff each coordinate is in the block's range on its axis. -/
theorem mem_blk2 (t : Fin cfg2.N) (i : S100000x8.Idx) :
    i ∈ ((cfg2.win 4).blk t).view.set ↔ ∀ a : Fin 2, win2_4.index t a * S10000x8.size a ≤ (i a).val
      ∧ (i a).val < win2_4.index t a * S10000x8.size a + S10000x8.size a := by
  show i ∈ ((View.whole main_v35).slice (win2_4.rect t)).set ↔ _
  rw [View.set_slice_whole, Rect.mem_set_unit]
  exact Iff.rfl

/-- Row `r` of the result lies in the block of point `r / 10000`. -/
theorem cover2 (i : S100000x8.Idx) :
    ∃ t : Fin cfg2.N, (cfg2.win 4).flush t = true ∧ i ∈ ((cfg2.win 4).blk t).view.set := by
  have hi0 : (i 0).val < 100000 := (i 0).isLt
  have hi1 : (i 1).val < 8 := (i 1).isLt
  have ht : (i 0).val / 10000 < cfg2.N := by rw [show cfg2.N = 10 from N_2]; omega
  have e := idx2 ⟨(i 0).val / 10000, ht⟩
  refine ⟨⟨(i 0).val / 10000, ht⟩, flush2_4 _, ?_⟩
  rw [mem_blk2]
  intro a
  match a with
  | ⟨0, _⟩ =>
    show win2_4.index ⟨(i 0).val / 10000, ht⟩ (0 : Fin 2) * 10000 ≤ (i 0).val
      ∧ (i 0).val < win2_4.index ⟨(i 0).val / 10000, ht⟩ (0 : Fin 2) * 10000 + 10000
    rw [e.2.2.2.2.2.2.2.2.1]
    show (i 0).val / 10000 * 10000 ≤ (i 0).val ∧ (i 0).val < (i 0).val / 10000 * 10000 + 10000
    omega
  | ⟨1, _⟩ =>
    show win2_4.index ⟨(i 0).val / 10000, ht⟩ (1 : Fin 2) * 8 ≤ (i 1).val
      ∧ (i 1).val < win2_4.index ⟨(i 0).val / 10000, ht⟩ (1 : Fin 2) * 8 + 8
    omega

/-- The head region's result array: any array with the head's entries. -/
theorem final2 (c : Dev nD) (A : S100000x16.Idx → EReal) (B : S1x16.Idx → EReal) (W : S8x16.Idx → EReal) (C : S1x8.Idx → EReal)
    (hA : V c main_v32 = A) (hB : V c main_v33 = B) (hW : V c main_arg7 = W) (hC : V c main_v34 = C) (G : S100000x8.Idx → EReal)
    (hG : ∀ (P : Fin 100000) (q : Fin 8), G (ix2 P q)
      = softmaxAt (fun j : Fin 8 => hiddenDot (fun k => A (ix2 P k)) (fun k => B (ix2 (0 : Fin 1) k)) (fun k => W (ix2 j k))
        + C (ix2 (0 : Fin 1) j)) q) :
    (dat2 V c).arrAt 4 cfg2.N = G :=
  (dat2 V c).arrAt_eq_of_cover 4 G (fun t _ => flushed2 V c A B W C hA hB hW hC G hG t) cover2

end Cert.KernelIdeal.Blocks

end
-- ==== Proof.RefRows.lean ====
/-
  The reference's dense stages read at one entry.

  The reference computes every dense stage on the whole node array at once; entry `(P, q)` of a stage's result is a row
  function (`Cert.RowSpec`) of row `P` of the stage's input — the aggregated messages of the layer before — and of the
  weights and biases. A product with the transposed weights reads the weights at `(q, k)`; a bias vector broadcast first
  to one row and then down the rows is read at `k`; the rectifier's floor and the starting values of the row maximum
  and the row sum are the same f32 words the kernel uses.
-/
import proofs.«111323_j32719060861599_2_alg».proof.Proof.Gen.ReferenceIdeal.Read
import proofs.«111323_j32719060861599_2_alg».proof.Proof.LibColumn
import proofs.«111323_j32719060861599_2_alg».proof.Proof.RowSpec
import Idealize.ShloMosaic.PureOps.Ideal.Laws

noncomputable section

open scoped BigOperators

namespace Cert.ReferenceIdeal.Rows

open Idealize.ShloMosaic Idealize.ShloMosaic.ValueIdx Cert.ReferenceIdeal Cert.ReferenceIdeal.Gen Cert.ReferenceIdeal.Read Cert.RowSpec

variable [Cert.ReferenceIdeal.Facts]

/-- The projection at `(P, q)`: row `P` of the features against row `q` of the weights. -/
theorem proj_at (x0 : (⟨S100000x128, .f32⟩ : BufTy).Contents (Elt Ideal)) (x3 : (⟨S16x128, .f32⟩ : BufTy).Contents (Elt Ideal)) (P : Fin 100000) (q : Fin 16) :
    val_main_v5 (F := Ideal) x0 x3 (ix2 P q) = ∑ k : Fin 128, x0 (ix2 P k) * x3 (ix2 q k) := by
  rw [val_main_v5_apply]
  refine Finset.sum_congr rfl fun k _ => ?_
  rw [val_main_v4_apply]
  have e1 : lidx_main_v5 (ix2 P q) k = ix2 P k := funext fun a => Fin.ext (by match a with | ⟨0, _⟩ => rfl | ⟨1, _⟩ => rfl)
  have e2 : idx_main_v4 (ridx_main_v5 (ix2 P q) k) = ix2 q k := funext fun a => Fin.ext (by match a with | ⟨0, _⟩ => rfl | ⟨1, _⟩ => rfl)
  rw [e1, e2]

/-- The hidden layer at `(P, q)`: the rectified row `P` of the first aggregation against row `q` of the weights. -/
theorem hidden_at (x0 : (⟨S100000x128, .f32⟩ : BufTy).Contents (Elt Ideal)) (x1 : (⟨S2x3200000, .i32⟩ : BufTy).Contents (Elt Ideal)) (x2 : (⟨S3200000, .f32⟩ : BufTy).Contents (Elt Ideal)) (x3 : (⟨S16x128, .f32⟩ : BufTy).Contents (Elt Ideal)) (x4 : (⟨S16, .f32⟩ : BufTy).Contents (Elt Ideal)) (x5 : (⟨S16x16, .f32⟩ : BufTy).Contents (Elt Ideal)) (P : Fin 100000) (q : Fin 16) :
    val_main_v24 (F := Ideal) x0 x1 x2 x3 x4 x5 (ix2 P q)
      = hiddenDot (fun k => val_main_v18 (F := Ideal) x0 x1 x2 x3 (ix2 P k)) (fun k => x4 (ix1 k)) (fun k => x5 (ix2 q k)) := by
  rw [val_main_v24_apply]
  unfold hiddenDot
  refine Finset.sum_congr rfl fun k _ => ?_
  rw [val_main_v22_apply, val_main_v21_apply, val_main_v20_apply, val_main_v19_apply, val_main_call0_v0_apply,
    val_main_call0_cst_apply, val_main_v23_apply]
  have e1 : lidx_main_v24 (ix2 P q) k = ix2 P k := funext fun a => Fin.ext (by match a with | ⟨0, _⟩ => rfl | ⟨1, _⟩ => rfl)
  have e2 : idx_main_v19 (idx_main_v20 (ix2 P k)) = ix1 k := funext fun a => Fin.ext (by match a with | ⟨0, _⟩ => rfl)
  have e3 : idx_main_v23 (ridx_main_v24 (ix2 P q) k) = ix2 q k := funext fun a => Fin.ext (by match a with | ⟨0, _⟩ => rfl | ⟨1, _⟩ => rfl)
  rw [e1, e2, e3]
  rfl

/-- The logits at `(P, j)`: the rectified row `P` of the second aggregation against row `j` of the head's weights, plus
    the bias of class `j`. -/
theorem logits_at (x0 : (⟨S100000x128, .f32⟩ : BufTy).Contents (Elt Ideal)) (x1 : (⟨S2x3200000, .i32⟩ : BufTy).Contents (Elt Ideal)) (x2 : (⟨S3200000, .f32⟩ : BufTy).Contents (Elt Ideal)) (x3 : (⟨S16x128, .f32⟩ : BufTy).Contents (Elt Ideal)) (x4 : (⟨S16, .f32⟩ : BufTy).Contents (Elt Ideal)) (x5 : (⟨S16x16, .f32⟩ : BufTy).Contents (Elt Ideal)) (x6 : (⟨S16, .f32⟩ : BufTy).Contents (Elt Ideal)) (x7 : (⟨S8x16, .f32⟩ : BufTy).Contents (Elt Ideal)) (x8 : (⟨S8, .f32⟩ : BufTy).Contents (Elt Ideal)) (P : Fin 100000) (j : Fin 8) :
    val_main_v46 (F := Ideal) x0 x1 x2 x3 x4 x5 x6 x7 x8 (ix2 P j)
      = hiddenDot (fun k => val_main_v37 (F := Ideal) x0 x1 x2 x3 x4 x5 (ix2 P k)) (fun k => x6 (ix1 k)) (fun k => x7 (ix2 j k))
        + x8 (ix1 j) := by
  rw [val_main_v46_apply, val_main_v43_apply, val_main_v45_apply, val_main_v44_apply]
  have e0 : idx_main_v44 (idx_main_v45 (ix2 P j)) = ix1 j := funext fun a => Fin.ext (by match a with | ⟨0, _⟩ => rfl)
  rw [e0]
  unfold hiddenDot
  refine congrArg (· + x8 (ix1 j)) ?_
  refine Finset.sum_congr rfl fun k _ => ?_
  rw [val_main_v41_apply, val_main_v40_apply, val_main_v39_apply, val_main_v38_apply, val_main_call1_v0_apply,
    val_main_call1_cst_apply, val_main_v42_apply]
  have e1 : lidx_main_v43 (ix2 P j) k = ix2 P k := funext fun a => Fin.ext (by match a with | ⟨0, _⟩ => rfl | ⟨1, _⟩ => rfl)
  have e2 : idx_main_v38 (idx_main_v39 (ix2 P k)) = ix1 k := funext fun a => Fin.ext (by match a with | ⟨0, _⟩ => rfl)
  have e3 : idx_main_v42 (ridx_main_v43 (ix2 P j) k) = ix2 j k := funext fun a => Fin.ext (by match a with | ⟨0, _⟩ => rfl | ⟨1, _⟩ => rfl)
  rw [e1, e2, e3]
  rfl

/-- The reference's reduction of the logits over the classes keeps the rows. -/
theorem reducesRows : S100000x8.Reduces [1] S100000 := by decide

/-- The host's maximum over the classes of row `P` of any array, folded from `-∞`, is the row's maximum. -/
theorem hostRowMax (y : (⟨S100000x8, .f32⟩ : BufTy).Contents (Elt Ideal)) (P : Fin 100000) :
    Host.reduce (FloatOps.maximumf (F := Ideal) (φ := .f32)) y (val_main_cst_4 (F := Ideal)) reducesTo_S100000x8_S100000_d1 h_S_ (ix1 P)
      = rowMax (fun j : Fin 8 => y (ix2 P j)) := by
  refine (Host.reduce_eq_fold_single (FloatOps.maximumf (F := Ideal) (φ := .f32)) y (val_main_cst_4 (F := Ideal))
    reducesTo_S100000x8_S100000_d1 reducesRows h_S_ (ix1 P)).trans ?_
  unfold rowMax
  refine congrArg (Finset.fold max _ · Finset.univ) ?_
  funext k
  show y (reducesRows.lift (ix1 P) k) = _
  rw [Cert.LibColumn.lift_cols]
  rfl

/-- The maximum the reference subtracts from row `P`: the row's maximum folded from `-∞` (taken with `-∞` once more). -/
theorem rowMax_at (x0 : (⟨S100000x128, .f32⟩ : BufTy).Contents (Elt Ideal)) (x1 : (⟨S2x3200000, .i32⟩ : BufTy).Contents (Elt Ideal)) (x2 : (⟨S3200000, .f32⟩ : BufTy).Contents (Elt Ideal)) (x3 : (⟨S16x128, .f32⟩ : BufTy).Contents (Elt Ideal)) (x4 : (⟨S16, .f32⟩ : BufTy).Contents (Elt Ideal)) (x5 : (⟨S16x16, .f32⟩ : BufTy).Contents (Elt Ideal)) (x6 : (⟨S16, .f32⟩ : BufTy).Contents (Elt Ideal)) (x7 : (⟨S8x16, .f32⟩ : BufTy).Contents (Elt Ideal)) (x8 : (⟨S8, .f32⟩ : BufTy).Contents (Elt Ideal)) (P : Fin 100000) :
    val_main_v49 (F := Ideal) x0 x1 x2 x3 x4 x5 x6 x7 x8 (ix1 P) = rowMax (fun j : Fin 8 => val_main_v46 (F := Ideal) x0 x1 x2 x3 x4 x5 x6 x7 x8 (ix2 P j)) := by
  rw [val_main_v49_apply, val_main_v48_apply, val_main_cst_5_apply]
  unfold val_main_v47
  refine Eq.trans ?_ (max_negInf_rowMax _)
  exact congrArg (max negInfWord) (hostRowMax (val_main_v46 (F := Ideal) x0 x1 x2 x3 x4 x5 x6 x7 x8) P)

/-- The reference's result at `(P, q)`: the softmax, at `q`, of row `P` of the logits. -/
theorem result_at (x0 : (⟨S100000x128, .f32⟩ : BufTy).Contents (Elt Ideal)) (x1 : (⟨S2x3200000, .i32⟩ : BufTy).Contents (Elt Ideal)) (x2 : (⟨S3200000, .f32⟩ : BufTy).Contents (Elt Ideal)) (x3 : (⟨S16x128, .f32⟩ : BufTy).Contents (Elt Ideal)) (x4 : (⟨S16, .f32⟩ : BufTy).Contents (Elt Ideal)) (x5 : (⟨S16x16, .f32⟩ : BufTy).Contents (Elt Ideal)) (x6 : (⟨S16, .f32⟩ : BufTy).Contents (Elt Ideal)) (x7 : (⟨S8x16, .f32⟩ : BufTy).Contents (Elt Ideal)) (x8 : (⟨S8, .f32⟩ : BufTy).Contents (Elt Ideal)) (P : Fin 100000) (q : Fin 8) :
    val_main_v57 (F := Ideal) x0 x1 x2 x3 x4 x5 x6 x7 x8 (ix2 P q)
      = softmaxAt (fun j : Fin 8 => val_main_v46 (F := Ideal) x0 x1 x2 x3 x4 x5 x6 x7 x8 (ix2 P j)) q := by
  have hshift : ∀ j : Fin 8, val_main_v53 (F := Ideal) x0 x1 x2 x3 x4 x5 x6 x7 x8 (ix2 P j)
      = Ideal.exp (val_main_v46 (F := Ideal) x0 x1 x2 x3 x4 x5 x6 x7 x8 (ix2 P j)
          - rowMax (fun j : Fin 8 => val_main_v46 (F := Ideal) x0 x1 x2 x3 x4 x5 x6 x7 x8 (ix2 P j))) := by
    intro j
    rw [val_main_v53_apply, val_main_v52_apply, val_main_v51_apply, val_main_v50_apply]
    have e : idx_main_v50 (idx_main_v51 (ix2 P j)) = ix1 P := funext fun a => Fin.ext (by match a with | ⟨0, _⟩ => rfl)
    rw [e, rowMax_at, Ideal.hostUnary_exp_def, Ideal.subf_def]
  rw [val_main_v57_apply, val_main_v56_apply, val_main_v55_apply, val_main_v54_apply, val_main_cst_6_apply]
  have e : idx_main_v55 (idx_main_v56 (ix2 P q)) = ix1 P := funext fun a => Fin.ext (by match a with | ⟨0, _⟩ => rfl)
  rw [e, hshift]
  unfold softmaxAt
  show Ideal.div _ (Ideal.ofBits .f32 0x00000000#32 + _) = _
  rw [Ideal.ofBits_zero_f32, zero_add]
  refine congrArg (Ideal.div _) (Finset.sum_congr rfl fun j _ => ?_)
  have e' : idx_main_v54 (ix1 P) j = ix2 P j := funext fun a => Fin.ext (by match a with | ⟨0, _⟩ => rfl | ⟨1, _⟩ => rfl)
  rw [e', hshift]

end Cert.ReferenceIdeal.Rows

end
-- ==== Proof.RunValue.lean ====
/-
  The kernel program's run with its result named, and the result as the reference's function of the arguments.

  The program is three tiled regions (projection, hidden layer, head) with the same host operations between them as
  the reference has between its dense stages: the source and destination node of every edge are cut out of the edge
  array once, and each aggregation gathers the rows of the stage before at the edges' sources, scales them by the edge
  weights and adds them up at the edges' destinations. Reading the buffers stage by stage from the launch memory:
  every region's result is the reference's dense stage of that region's inputs (the regions' blocks tile their arrays,
  `Cert.KernelIdeal.Blocks`; the reference's stages read at an entry, `Cert.ReferenceIdeal.Rows`), and every stretch of
  host operations is, operation for operation, the reference's. So the last region's result array is the reference's
  result term of the launch contents of the arguments.
-/
import proofs.«111323_j32719060861599_2_alg».proof.Proof.Gen.KernelIdeal.Frame
import proofs.«111323_j32719060861599_2_alg».proof.Proof.Blocks1
import proofs.«111323_j32719060861599_2_alg».proof.Proof.Blocks2
import proofs.«111323_j32719060861599_2_alg».proof.Proof.RefRows
import Idealize.ShloMosaic.Lib.StableHlo.Run
import Idealize.ShloMosaic.Lib.ValueLayout

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo Idealize.ShloMosaic.ValueIdx
open Cert.KernelIdeal Cert.KernelIdeal.Gen Cert.RowSpec

section Named

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, without a fault, with the result buffer at the last
    boundary's contents and the arguments as launched. -/
theorem run_named : θ_run defs (onTc (τ := τ) (main (F := F))) ⟨m, fun _ => 0, ρ⟩ (fun r => ∀ c : Dev nD,
      r.2.mem ((c.tc : Thread nD τ).loc main_v35) = W6 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v35 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Named

variable (m : (ℓ : Loc nD τ sig) → Buf (Elt Ideal) ℓ) (ρ : Dev nD → PrngReg) (c : Dev nD)

/-- The launch contents of argument 0. -/
abbrev arg0 : (⟨Cert.ReferenceIdeal.S100000x128, .f32⟩ : BufTy).Contents (Elt Ideal) := m ((c : Thread nD τ).loc main_arg0)
/-- The launch contents of argument 1. -/
abbrev arg1 : (⟨Cert.ReferenceIdeal.S2x3200000, .i32⟩ : BufTy).Contents (Elt Ideal) := m ((c : Thread nD τ).loc main_arg1)
/-- The launch contents of argument 2. -/
abbrev arg2 : (⟨Cert.ReferenceIdeal.S3200000, .f32⟩ : BufTy).Contents (Elt Ideal) := m ((c : Thread nD τ).loc main_arg2)
/-- The launch contents of argument 3. -/
abbrev arg3 : (⟨Cert.ReferenceIdeal.S16x128, .f32⟩ : BufTy).Contents (Elt Ideal) := m ((c : Thread nD τ).loc main_arg3)
/-- The launch contents of argument 4. -/
abbrev arg4 : (⟨Cert.ReferenceIdeal.S16, .f32⟩ : BufTy).Contents (Elt Ideal) := m ((c : Thread nD τ).loc main_arg4)
/-- The launch contents of argument 5. -/
abbrev arg5 : (⟨Cert.ReferenceIdeal.S16x16, .f32⟩ : BufTy).Contents (Elt Ideal) := m ((c : Thread nD τ).loc main_arg5)
/-- The launch contents of argument 6. -/
abbrev arg6 : (⟨Cert.ReferenceIdeal.S16, .f32⟩ : BufTy).Contents (Elt Ideal) := m ((c : Thread nD τ).loc main_arg6)
/-- The launch contents of argument 7. -/
abbrev arg7 : (⟨Cert.ReferenceIdeal.S8x16, .f32⟩ : BufTy).Contents (Elt Ideal) := m ((c : Thread nD τ).loc main_arg7)
/-- The launch contents of argument 8. -/
abbrev arg8 : (⟨Cert.ReferenceIdeal.S8, .f32⟩ : BufTy).Contents (Elt Ideal) := m ((c : Thread nD τ).loc main_arg8)

/-! ## The buffers at the first region's entry -/

theorem W1_arg0 : W1 m ρ c (Proc.devRef .tc main_arg0) = arg0 m c := by
  dsimp only [W1, hostOps0]; after_results
theorem W1_arg2 : W1 m ρ c (Proc.devRef .tc main_arg2) = arg2 m c := by
  dsimp only [W1, hostOps0]; after_results
theorem W1_arg3 : W1 m ρ c (Proc.devRef .tc main_arg3) = arg3 m c := by
  dsimp only [W1, hostOps0]; after_results
theorem W1_arg4 : W1 m ρ c (Proc.devRef .tc main_arg4) = arg4 m c := by
  dsimp only [W1, hostOps0]; after_results
theorem W1_arg5 : W1 m ρ c (Proc.devRef .tc main_arg5) = arg5 m c := by
  dsimp only [W1, hostOps0]; after_results
theorem W1_arg6 : W1 m ρ c (Proc.devRef .tc main_arg6) = arg6 m c := by
  dsimp only [W1, hostOps0]; after_results
theorem W1_arg7 : W1 m ρ c (Proc.devRef .tc main_arg7) = arg7 m c := by
  dsimp only [W1, hostOps0]; after_results
theorem W1_arg8 : W1 m ρ c (Proc.devRef .tc main_arg8) = arg8 m c := by
  dsimp only [W1, hostOps0]; after_results
/-- The edges' source nodes, cut out of the edge array before the first region. -/
theorem W1_v1 : W1 m ρ c (Proc.devRef .tc main_v1) = Cert.ReferenceIdeal.Read.val_main_v1 (F := Ideal) (arg1 m c) := by
  dsimp only [W1, hostOps0]; after_results; rfl
/-- The edges' destination nodes. -/
theorem W1_v3 : W1 m ρ c (Proc.devRef .tc main_v3) = Cert.ReferenceIdeal.Read.val_main_v3 (F := Ideal) (arg1 m c) := by
  dsimp only [W1, hostOps0]; after_results; rfl

/-! ## The first region and what it leaves -/

/-- The projection region's result is the reference's projection of the arguments. -/
theorem W2_v4 : W2 m ρ c (Proc.devRef .tc main_v4) = Cert.ReferenceIdeal.Read.val_main_v5 (F := Ideal) (arg0 m c) (arg3 m c) :=
  (W2_arr m ρ c 2).trans (Blocks.final0 (V1 m ρ) c (arg0 m c) (arg3 m c) (W1_arg0 m ρ c) (W1_arg3 m ρ c) _
    (fun P q => Cert.ReferenceIdeal.Rows.proj_at (arg0 m c) (arg3 m c) P q))

theorem W2_v1 : W2 m ρ c (Proc.devRef .tc main_v1) = Cert.ReferenceIdeal.Read.val_main_v1 (F := Ideal) (arg1 m c) :=
  (W2_of_ne m ρ c main_v1 (by decide)).trans (W1_v1 m ρ c)
theorem W2_v3 : W2 m ρ c (Proc.devRef .tc main_v3) = Cert.ReferenceIdeal.Read.val_main_v3 (F := Ideal) (arg1 m c) :=
  (W2_of_ne m ρ c main_v3 (by decide)).trans (W1_v3 m ρ c)
theorem W2_arg2 : W2 m ρ c (Proc.devRef .tc main_arg2) = arg2 m c :=
  (W2_of_ne m ρ c main_arg2 (by decide)).trans (W1_arg2 m ρ c)
theorem W2_arg4 : W2 m ρ c (Proc.devRef .tc main_arg4) = arg4 m c :=
  (W2_of_ne m ρ c main_arg4 (by decide)).trans (W1_arg4 m ρ c)
theorem W2_arg5 : W2 m ρ c (Proc.devRef .tc main_arg5) = arg5 m c :=
  (W2_of_ne m ρ c main_arg5 (by decide)).trans (W1_arg5 m ρ c)
theorem W2_arg6 : W2 m ρ c (Proc.devRef .tc main_arg6) = arg6 m c :=
  (W2_of_ne m ρ c main_arg6 (by decide)).trans (W1_arg6 m ρ c)
theorem W2_arg7 : W2 m ρ c (Proc.devRef .tc main_arg7) = arg7 m c :=
  (W2_of_ne m ρ c main_arg7 (by decide)).trans (W1_arg7 m ρ c)
theorem W2_arg8 : W2 m ρ c (Proc.devRef .tc main_arg8) = arg8 m c :=
  (W2_of_ne m ρ c main_arg8 (by decide)).trans (W1_arg8 m ρ c)

/-! ## The first aggregation and the second region's entry -/

/-- The first aggregation is the reference's, operation for operation. -/
theorem W3_v17 : W3 m ρ c (Proc.devRef .tc main_v17) = Cert.ReferenceIdeal.Read.val_main_v18 (F := Ideal) (arg0 m c) (arg1 m c) (arg2 m c) (arg3 m c) := by
  dsimp only [W3, hostOps1]; after_results
  rw [W2_v4, W2_v1, W2_v3, W2_arg2]
  rfl
/-- The hidden layer's bias as one row. -/
theorem W3_v18 : W3 m ρ c (Proc.devRef .tc main_v18)
    = (shapeCast S1x16 (arg4 m c : S16.Idx → EReal) shapeCasts_S16_S1x16 : S1x16.Idx → EReal) := by
  dsimp only [W3, hostOps1]; after_results
  rw [W2_arg4]
  rfl
theorem W3_v1 : W3 m ρ c (Proc.devRef .tc main_v1) = Cert.ReferenceIdeal.Read.val_main_v1 (F := Ideal) (arg1 m c) := by
  dsimp only [W3, hostOps1]; after_results; exact W2_v1 m ρ c
theorem W3_v3 : W3 m ρ c (Proc.devRef .tc main_v3) = Cert.ReferenceIdeal.Read.val_main_v3 (F := Ideal) (arg1 m c) := by
  dsimp only [W3, hostOps1]; after_results; exact W2_v3 m ρ c
theorem W3_arg2 : W3 m ρ c (Proc.devRef .tc main_arg2) = arg2 m c := by
  dsimp only [W3, hostOps1]; after_results; exact W2_arg2 m ρ c
theorem W3_arg5 : W3 m ρ c (Proc.devRef .tc main_arg5) = arg5 m c := by
  dsimp only [W3, hostOps1]; after_results; exact W2_arg5 m ρ c
theorem W3_arg6 : W3 m ρ c (Proc.devRef .tc main_arg6) = arg6 m c := by
  dsimp only [W3, hostOps1]; after_results; exact W2_arg6 m ρ c
theorem W3_arg7 : W3 m ρ c (Proc.devRef .tc main_arg7) = arg7 m c := by
  dsimp only [W3, hostOps1]; after_results; exact W2_arg7 m ρ c
theorem W3_arg8 : W3 m ρ c (Proc.devRef .tc main_arg8) = arg8 m c := by
  dsimp only [W3, hostOps1]; after_results; exact W2_arg8 m ρ c

/-! ## The second region and what it leaves -/

/-- The hidden-layer region's result is the reference's hidden layer of the arguments. -/
theorem W4_v19 : W4 m ρ c (Proc.devRef .tc main_v19) = Cert.ReferenceIdeal.Read.val_main_v24 (F := Ideal) (arg0 m c) (arg1 m c) (arg2 m c) (arg3 m c) (arg4 m c) (arg5 m c) :=
  (W4_arr m ρ c 3).trans (Blocks.final1 (V3 m ρ) c _ _ _ (W3_v17 m ρ c) (W3_v18 m ρ c) (W3_arg5 m ρ c) _
    (fun P q => (Cert.ReferenceIdeal.Rows.hidden_at (arg0 m c) (arg1 m c) (arg2 m c) (arg3 m c) (arg4 m c) (arg5 m c) P q).trans
      (congrArg (fun b => hiddenDot _ b _) (funext fun k => (shapeCast_a_1a_apply (arg4 m c) shapeCasts_S16_S1x16 0 k).symm))))

theorem W4_v1 : W4 m ρ c (Proc.devRef .tc main_v1) = Cert.ReferenceIdeal.Read.val_main_v1 (F := Ideal) (arg1 m c) :=
  (W4_of_ne m ρ c main_v1 (by decide)).trans (W3_v1 m ρ c)
theorem W4_v3 : W4 m ρ c (Proc.devRef .tc main_v3) = Cert.ReferenceIdeal.Read.val_main_v3 (F := Ideal) (arg1 m c) :=
  (W4_of_ne m ρ c main_v3 (by decide)).trans (W3_v3 m ρ c)
theorem W4_arg2 : W4 m ρ c (Proc.devRef .tc main_arg2) = arg2 m c :=
  (W4_of_ne m ρ c main_arg2 (by decide)).trans (W3_arg2 m ρ c)
theorem W4_arg6 : W4 m ρ c (Proc.devRef .tc main_arg6) = arg6 m c :=
  (W4_of_ne m ρ c main_arg6 (by decide)).trans (W3_arg6 m ρ c)
theorem W4_arg7 : W4 m ρ c (Proc.devRef .tc main_arg7) = arg7 m c :=
  (W4_of_ne m ρ c main_arg7 (by decide)).trans (W3_arg7 m ρ c)
theorem W4_arg8 : W4 m ρ c (Proc.devRef .tc main_arg8) = arg8 m c :=
  (W4_of_ne m ρ c main_arg8 (by decide)).trans (W3_arg8 m ρ c)

/-! ## The second aggregation and the third region's entry -/

/-- The second aggregation is the reference's, operation for operation. -/
theorem W5_v32 : W5 m ρ c (Proc.devRef .tc main_v32) = Cert.ReferenceIdeal.Read.val_main_v37 (F := Ideal) (arg0 m c) (arg1 m c) (arg2 m c) (arg3 m c) (arg4 m c) (arg5 m c) := by
  dsimp only [W5, hostOps2]; after_results
  rw [W4_v19, W4_v1, W4_v3, W4_arg2]
  rfl
/-- The head's hidden bias as one row. -/
theorem W5_v33 : W5 m ρ c (Proc.devRef .tc main_v33)
    = (shapeCast S1x16 (arg6 m c : S16.Idx → EReal) shapeCasts_S16_S1x16 : S1x16.Idx → EReal) := by
  dsimp only [W5, hostOps2]; after_results
  rw [W4_arg6]
  rfl
/-- The class bias as one row. -/
theorem W5_v34 : W5 m ρ c (Proc.devRef .tc main_v34)
    = (shapeCast S1x8 (arg8 m c : S8.Idx → EReal) shapeCasts_S8_S1x8 : S1x8.Idx → EReal) := by
  dsimp only [W5, hostOps2]; after_results
  rw [W4_arg8]
  rfl
theorem W5_arg7 : W5 m ρ c (Proc.devRef .tc main_arg7) = arg7 m c := by
  dsimp only [W5, hostOps2]; after_results; exact W4_arg7 m ρ c

/-! ## The third region: the result -/

/-- The program's result array is the reference's result term of the launch contents of the arguments. -/
theorem result_eq : W6 m ρ c (Proc.devRef .tc main_v35)
    = Cert.ReferenceIdeal.Read.val_main_v57 (F := Ideal) (arg0 m c) (arg1 m c) (arg2 m c) (arg3 m c) (arg4 m c) (arg5 m c) (arg6 m c) (arg7 m c) (arg8 m c) :=
  (W6_arr m ρ c 4).trans (Blocks.final2 (V5 m ρ) c _ _ _ _ (W5_v32 m ρ c) (W5_v33 m ρ c) (W5_arg7 m ρ c) (W5_v34 m ρ c) _
    (fun P q => (Cert.ReferenceIdeal.Rows.result_at (arg0 m c) (arg1 m c) (arg2 m c) (arg3 m c) (arg4 m c) (arg5 m c) (arg6 m c) (arg7 m c) (arg8 m c) P q).trans
      (congrArg (softmaxAt · q) (funext fun j => (Cert.ReferenceIdeal.Rows.logits_at (arg0 m c) (arg1 m c) (arg2 m c) (arg3 m c) (arg4 m c) (arg5 m c) (arg6 m c) (arg7 m c) (arg8 m c) P j).trans
        (congr (congrArg (· + ·) (congrArg (fun b => hiddenDot _ b _)
            (funext fun k => (shapeCast_a_1a_apply (arg6 m c) shapeCasts_S16_S1x16 0 k).symm)))
          (shapeCast_a_1a_apply (arg8 m c) shapeCasts_S8_S1x8 0 j).symm)))))

/-- The run, read: every weakly fair execution terminates, without a fault, with the result at the reference's term of
    the arguments and the arguments as launched. -/
theorem run : θ_run defs (onTc (τ := τ) (main (F := Ideal))) ⟨m, fun _ => 0, ρ⟩ (fun r => ∀ c : Dev nD,
      r.2.mem ((c.tc : Thread nD τ).loc main_v35) = Cert.ReferenceIdeal.Read.val_main_v57 (F := Ideal) (arg0 m c) (arg1 m c) (arg2 m c) (arg3 m c) (arg4 m c) (arg5 m c) (arg6 m c) (arg7 m c) (arg8 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result_eq m ρ c), (h c).2⟩) (run_named m ρ)

end Cert.KernelIdeal.RunValue

end
-- ==== Proof.lean ====
/-
  A two-layer graph convolution with a softmax head, tiled over the nodes, against its plain reference: the proof of
  `Cert.Claim`.

  Both programs compute, for node features `x`, edges `(src, dst)` with weights `w`, and weights and biases
  `W1, b1, W2, b2, Wl, bl`:
    h1 = x · W1ᵀ,  a1 = Σ over edges into a node of w · h1[src],  h2 = max (a1 + b1) 0 · W2ᵀ,
    a2 = the same aggregation of h2,  logits = max (a2 + b2) 0 · Wlᵀ + bl,  result = softmax of each row of the logits.
  The kernel program computes the three dense stages in regions tiled over blocks of 10000 rows (with a conversion to
  bf16 before each product, the identity on the extended reals) and adds each bias inside the next region; the reference
  computes them on whole arrays. Every dense stage acts on rows independently, so a tiled stage is the whole stage
  (`Proof/Blocks0.lean`, `Blocks1.lean`, `Blocks2.lean` over the bodies read at an entry, `Proof/KerRows.lean`,
  `KerHead.lean`, and the reference's stages read at an entry, `Proof/RefRows.lean`); the aggregations between them
  are the same host operations in both programs (`Proof/RunValue.lean`). No law of the extended reals beyond
  `max (-∞) v = v` for the folded row maximum and `0 + s = s` is used, and the inputs' finiteness is not needed.

  The three frames are the generated frame certificates of the two kernel programs and the reference's generated run;
  the idealization rewrote no operation, so `preserves` is trivial.
-/
import proofs.«111323_j32719060861599_2_alg».proof.Defs
import proofs.«111323_j32719060861599_2_alg».proof.Proof.Gen.Kernel
import proofs.«111323_j32719060861599_2_alg».proof.Proof.Gen.Kernel.Skeleton
import proofs.«111323_j32719060861599_2_alg».proof.Proof.Gen.Kernel.Launch
import proofs.«111323_j32719060861599_2_alg».proof.Proof.Gen.Kernel.Points
import proofs.«111323_j32719060861599_2_alg».proof.Proof.Gen.Kernel.Frame
import proofs.«111323_j32719060861599_2_alg».proof.Proof.Gen.KernelIdeal
import proofs.«111323_j32719060861599_2_alg».proof.Proof.Gen.KernelIdeal.Skeleton
import proofs.«111323_j32719060861599_2_alg».proof.Proof.Gen.KernelIdeal.Launch
import proofs.«111323_j32719060861599_2_alg».proof.Proof.Gen.KernelIdeal.Points
import proofs.«111323_j32719060861599_2_alg».proof.Proof.Gen.KernelIdeal.Frame
import proofs.«111323_j32719060861599_2_alg».proof.Proof.Gen.ReferenceIdeal
import proofs.«111323_j32719060861599_2_alg».proof.Proof.Gen.Pre_finite_inputs
import proofs.«111323_j32719060861599_2_alg».proof.Proof.Gen.ReferenceIdeal.Run
import proofs.«111323_j32719060861599_2_alg».proof.Proof.Gen.ReferenceIdeal.Read
import proofs.«111323_j32719060861599_2_alg».proof.Proof.RunValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's result term of the arguments: the kernel program by its run read stage by
    stage, the reference by its run, from memories that agree on the arguments. -/
theorem algebraic : Cert.algebraic_KernelIdeal_ReferenceIdeal := by
  intro m ρ m' ρ' _ hagree
  refine ⟨fun c => Cert.ReferenceIdeal.Read.val_main_v57 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v57_eq, h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
